-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x256 : Shape := ⟨3, ![4, 50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4x50000x256 : S_.BroadcastsInDim S4x50000x256 (![] : Fin 0 → Fin S4x50000x256.rank)
  reducesTo_S4x50000x256_S_d0_1_2 : S4x50000x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x50000x256 .f32) (main_arg1 : FVec F S256x256 .f32) (main_arg2 : FVec F S256 .f32) (main_arg3 : FVec F S256 .f32) (main_arg4 : FVec F S256 .f32) (main_arg5 : FVec F S256x1 .f32) (main_arg6 : FVec F S1 .f32) : IVec S_ 1 :=
  let main_v0 : FVec F S4x50000x256 .f32 := Host.absf main_arg0
  let main_cst : FVec F S_ .f32 := constant S_ .f32 0x7F800000#32
  let main_v1 : FVec F S4x50000x256 .f32 := broadcastInDim S4x50000x256 ![] bcast_S_S4x50000x256 main_cst
  let main_v2 : IVec S4x50000x256 1 := cmpf .olt main_v0 main_v1
  let main_c : IVec S_ 1 := constantI S_ 1 1#1
  let main_v3 : IVec S_ 1 := (fun x v => Host.reduce IntOp.andi x v reducesTo_S4x50000x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S4x50000x256 : Shape := ⟨3, ![4, 50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S200000x256 : Shape := ⟨2, ![200000, 256]⟩
abbrev S_ : Shape := ⟨0, ![]⟩
abbrev S8x256 : Shape := ⟨2, ![8, 256]⟩
abbrev S200000x1 : Shape := ⟨2, ![200000, 1]⟩
abbrev S2000x256 : Shape := ⟨2, ![2000, 256]⟩
abbrev S2000x1 : Shape := ⟨2, ![2000, 1]⟩
abbrev S1x256 : Shape := ⟨2, ![1, 256]⟩
abbrev S2000 : Shape := ⟨1, ![2000]⟩
abbrev S1x1 : Shape := ⟨2, ![1, 1]⟩
abbrev S4x50000 : Shape := ⟨2, ![4, 50000]⟩

abbrev nBuf : Space → Nat
  | .hbm => 30
  | .vmem => 6
  | .smem => 0
  | _ => 0

abbrev bufTy : (tb : Table) → Fin (tcTables nBuf tb) → BufTy
  | .hbm, ⟨0, _⟩ => ⟨S4x50000x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S200000x256, .f32⟩
  | .hbm, ⟨8, _⟩ => ⟨S_, .f32⟩
  | .hbm, ⟨9, _⟩ => ⟨S8x256, .f32⟩
  | .hbm, ⟨10, _⟩ => ⟨S_, .i32⟩
  | .hbm, ⟨11, _⟩ => ⟨S1, .i32⟩
  | .hbm, ⟨12, _⟩ => ⟨S8x256, .f32⟩
  | .hbm, ⟨13, _⟩ => ⟨S_, .i32⟩
  | .hbm, ⟨14, _⟩ => ⟨S1, .i32⟩
  | .hbm, ⟨15, _⟩ => ⟨S8x256, .f32⟩
  | .hbm, ⟨16, _⟩ => ⟨S_, .i32⟩
  | .hbm, ⟨17, _⟩ => ⟨S1, .i32⟩
  | .hbm, ⟨18, _⟩ => ⟨S8x256, .f32⟩
  | .hbm, ⟨19, _⟩ => ⟨S256, .f32⟩
  | .hbm, ⟨20, _⟩ => ⟨S_, .i32⟩
  | .hbm, ⟨21, _⟩ => ⟨S1, .i32⟩
  | .hbm, ⟨22, _⟩ => ⟨S8x256, .f32⟩
  | .hbm, ⟨23, _⟩ => ⟨S_, .f32⟩
  | .hbm, ⟨24, _⟩ => ⟨S256, .f32⟩
  | .hbm, ⟨25, _⟩ => ⟨S_, .i32⟩
  | .hbm, ⟨26, _⟩ => ⟨S1, .i32⟩
  | .hbm, ⟨27, _⟩ => ⟨S8x256, .f32⟩
  | .hbm, ⟨28, _⟩ => ⟨S200000x1, .f32⟩
  | .hbm, ⟨29, _⟩ => ⟨S4x50000, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S8x256, .f32⟩
  | .local _ .vmem, ⟨4, _⟩ => ⟨S2000x1, .f32⟩
  | .local _ .vmem, ⟨5, _⟩ => ⟨S2000x1, .f32⟩
  | _, _ => ⟨S4x50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x50000x256_S200000x256 : S4x50000x256.ShapeCasts S200000x256
  bcast_S_S8x256 : S_.BroadcastsInDim S8x256 (![] : Fin 0 → Fin S8x256.rank)
  bcast_S_S1 : S_.BroadcastsInDim S1 (![] : Fin 0 → Fin S1.rank)
  shapeCasts_S256x1_S256 : S256x1.ShapeCasts S256
  shapeCasts_S1_S_ : S1.ShapeCasts S_
  bcast_S_S256 : S_.BroadcastsInDim S256 (![] : Fin 0 → Fin S256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S8x256_S1x256_0_0 : ∀ a, (![0, 0] : Fin 2 → Nat) a + S1x256.size a ≤ S8x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S8x256_S1x256_1_0 : ∀ a, (![1, 0] : Fin 2 → Nat) a + S1x256.size a ≤ S8x256.size a
  inb_S8x256_S1x256_2_0 : ∀ a, (![2, 0] : Fin 2 → Nat) a + S1x256.size a ≤ S8x256.size a
  inb_S8x256_S1x256_3_0 : ∀ a, (![3, 0] : Fin 2 → Nat) a + S1x256.size a ≤ S8x256.size a
  inb_S8x256_S1x1_4_0 : ∀ a, (![4, 0] : Fin 2 → Nat) a + S1x1.size a ≤ S8x256.size a
  h_S1x1 : 0 < S1x1.numel
  inpos_S1x1_p0_0 : ∀ a, (![0, 0] : Fin 2 → Nat) a < S1x1.size a
  inb_S2000x1_S2000x1_0_0 : ∀ a, (![0, 0] : Fin 2 → Nat) a + S2000x1.size a ≤ S2000x1.size a
  h_S2000x1 : 0 < S2000x1.numel
  shapeCasts_S200000x1_S4x50000 : S200000x1.ShapeCasts S4x50000
  scatter_S8x256_S1_S256_0_0_0_0_wf : ScatterDims.WF S8x256 S1 S256 [0] [0] [0] 0
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S200000x1.size a
  hwx0_3 : ∀ i : grid0.Coords, EltTy.bits .f32 = 32 ∨ (Rect.block (s := S200000x1) S2000x1.size (cc0_transform_3 i) (hinb0_3 i)).WholeWords (EltTy.packing .f32)

variable [Facts₀]

def scatter_S8x256_S1_S256_0_0_0_0 : ScatterDims S8x256 S1 S256 where
  updateWindowDims := [0]
  insertedWindowDims := [0]
  scatterDimsToOperandDims := [0]
  indexVectorDim := 0
  wf := scatter_S8x256_S1_S256_0_0_0_0_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x50000x256 : Shape := ⟨3, ![4, 50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1x256 : Shape := ⟨3, ![1, 1, 256]⟩
abbrev S_ : Shape := ⟨0, ![]⟩
abbrev S4x50000 : Shape := ⟨2, ![4, 50000]⟩
abbrev S4x50000x1 : Shape := ⟨3, ![4, 50000, 1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x50000x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S4x50000x256, .f32⟩
  | .hbm, ⟨8, _⟩ => ⟨S1x1x256, .f32⟩
  | .hbm, ⟨9, _⟩ => ⟨S4x50000x256, .f32⟩
  | .hbm, ⟨10, _⟩ => ⟨S4x50000x256, .f32⟩
  | .hbm, ⟨11, _⟩ => ⟨S_, .f32⟩
  | .hbm, ⟨12, _⟩ => ⟨S4x50000, .f32⟩
  | .hbm, ⟨13, _⟩ => ⟨S4x50000x1, .f32⟩
  | .hbm, ⟨14, _⟩ => ⟨S_, .f32⟩
  | .hbm, ⟨15, _⟩ => ⟨S4x50000x1, .f32⟩
  | .hbm, ⟨16, _⟩ => ⟨S4x50000x1, .f32⟩
  | .hbm, ⟨17, _⟩ => ⟨S_, .i32⟩
  | .hbm, ⟨18, _⟩ => ⟨S_, .f32⟩
  | .hbm, ⟨19, _⟩ => ⟨S4x50000, .f32⟩
  | .hbm, ⟨20, _⟩ => ⟨S4x50000x1, .f32⟩
  | .hbm, ⟨21, _⟩ => ⟨S_, .f32⟩
  | .hbm, ⟨22, _⟩ => ⟨S4x50000x1, .f32⟩
  | .hbm, ⟨23, _⟩ => ⟨S4x50000x1, .f32⟩
  | .hbm, ⟨24, _⟩ => ⟨S4x50000x256, .f32⟩
  | .hbm, ⟨25, _⟩ => ⟨S4x50000x256, .f32⟩
  | .hbm, ⟨26, _⟩ => ⟨S4x50000x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x50000, .f32⟩
  | .hbm, ⟨32, _⟩ => ⟨S4x50000x1, .f32⟩
  | .hbm, ⟨33, _⟩ => ⟨S4x50000x1, .f32⟩
  | .hbm, ⟨34, _⟩ => ⟨S4x50000x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S4x50000x1, .f32⟩
  | .hbm, ⟨40, _⟩ => ⟨S4x50000x1, .f32⟩
  | .hbm, ⟨41, _⟩ => ⟨S4x50000x256, .f32⟩
  | .hbm, ⟨42, _⟩ => ⟨S4x50000x256, .f32⟩
  | .hbm, ⟨43, _⟩ => ⟨S_, .f32⟩
  | .hbm, ⟨44, _⟩ => ⟨S4x50000x1, .f32⟩
  | .hbm, ⟨45, _⟩ => ⟨S4x50000x1, .f32⟩
  | .hbm, ⟨46, _⟩ => ⟨S4x50000x1, .f32⟩
  | .hbm, ⟨47, _⟩ => ⟨S4x50000x256, .f32⟩
  | .hbm, ⟨48, _⟩ => ⟨S4x50000x256, .f32⟩
  | .hbm, ⟨49, _⟩ => ⟨S1x1x256, .f32⟩
  | .hbm, ⟨50, _⟩ => ⟨S4x50000x256, .f32⟩
  | .hbm, ⟨51, _⟩ => ⟨S4x50000x256, .f32⟩
  | .hbm, ⟨52, _⟩ => ⟨S1x1x256, .f32⟩
  | .hbm, ⟨53, _⟩ => ⟨S4x50000x256, .f32⟩
  | .hbm, ⟨54, _⟩ => ⟨S4x50000x256, .f32⟩
  | .hbm, ⟨55, _⟩ => ⟨S_, .f32⟩
  | .hbm, ⟨56, _⟩ => ⟨S4x50000x256, .f32⟩
  | .hbm, ⟨57, _⟩ => ⟨S4x50000x256, .f32⟩
  | .hbm, ⟨58, _⟩ => ⟨S4x50000x1, .f32⟩
  | .hbm, ⟨59, _⟩ => ⟨S1x1x1, .f32⟩
  | .hbm, ⟨60, _⟩ => ⟨S4x50000x1, .f32⟩
  | .hbm, ⟨61, _⟩ => ⟨S4x50000x1, .f32⟩
  | .hbm, ⟨62, _⟩ => ⟨S4x50000, .f32⟩
  | _, _ => ⟨S4x50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call1_cst : Ref sig .tc := ⟨.hbm, 55, rfl⟩
abbrev main_call1_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x50000x256_0_1_2 : S1x1x256.BroadcastsInDim S4x50000x256 (![0, 1, 2] : Fin 3 → Fin S4x50000x256.rank)
  reducesTo_S4x50000x256_S4x50000_d2 : S4x50000x256.ReducesTo [2] S4x50000
  h_S_ : 0 < S_.numel
  bcast_S4x50000_S4x50000x1_0_1 : S4x50000.BroadcastsInDim S4x50000x1 (![0, 1] : Fin 2 → Fin S4x50000x1.rank)
  bcast_S_S4x50000x1 : S_.BroadcastsInDim S4x50000x1 (![] : Fin 0 → Fin S4x50000x1.rank)
  bcast_S4x50000x1_S4x50000x256_0_1_2 : S4x50000x1.BroadcastsInDim S4x50000x256 (![0, 1, 2] : Fin 3 → Fin S4x50000x256.rank)
  bcast_S_S4x50000x256 : S_.BroadcastsInDim S4x50000x256 (![] : Fin 0 → Fin S4x50000x256.rank)
  bcast_S1_S1x1x1_2 : S1.BroadcastsInDim S1x1x1 (![2] : Fin 1 → Fin S1x1x1.rank)
  bcast_S1x1x1_S4x50000x1_0_1_2 : S1x1x1.BroadcastsInDim S4x50000x1 (![0, 1, 2] : Fin 3 → Fin S4x50000x1.rank)
  shapeCasts_S4x50000x1_S4x50000 : S4x50000x1.ShapeCasts S4x50000
  dot_S4x50000x256_S256x256_S4x50000x256_2_0_01_1_n_n_wf : DotDims.WF S4x50000x256 S256x256 S4x50000x256 [2] [0] [0, 1] [1] [] []
  dot_S4x50000x256_S256x1_S4x50000x1_2_0_01_1_n_n_wf : DotDims.WF S4x50000x256 S256x1 S4x50000x1 [2] [0] [0, 1] [1] [] []

variable [Facts₀]

def dot_S4x50000x256_S256x256_S4x50000x256_2_0_01_1_n_n : DotDims S4x50000x256 S256x256 S4x50000x256 where
  lhsContracting := [2]
  rhsContracting := [0]
  lhsNonContracting := [0, 1]
  rhsNonContracting := [1]
  lhsBatch := []
  rhsBatch := []
  wf := dot_S4x50000x256_S256x256_S4x50000x256_2_0_01_1_n_n_wf
def dot_S4x50000x256_S256x1_S4x50000x1_2_0_01_1_n_n : DotDims S4x50000x256 S256x1 S4x50000x1 where
  lhsContracting := [2]
  rhsContracting := [0]
  lhsNonContracting := [0, 1]
  rhsNonContracting := [1]
  lhsBatch := []
  rhsBatch := []
  wf := dot_S4x50000x256_S256x1_S4x50000x1_2_0_01_1_n_n_wf

class Facts : Prop extends Facts₀ where

variable [Facts]
-- ==== Proof.Spec.lean ====
/-
  The fused per-row MLP as one function of a row of the embedding and of the parameter arrays, over the
  extended reals: a linear layer to 256 hidden units, layer normalisation of the hidden row (mean and
  variance over its 256 entries, the variance offset by a small positive constant), an affine map, the
  positive part, and a linear read-out to one number.  Two spellings of the normalisation are stated:
  the centred entry TIMES the reciprocal square root of the offset variance, and the centred entry
  DIVIDED BY its square root.  They are one function: a variance is a sum of squares over 256, hence
  never negative, so the offset variance is strictly positive (possibly +infinity), and for such a
  number the reciprocal square root is the inverse of the (nonzero) square root.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- A matrix and a vector of extended reals over literal extents. -/
abbrev Mat (a b : Nat) := (⟨2, ![a, b]⟩ : Shape).Idx → EReal
abbrev Vect (a : Nat) := (⟨1, ![a]⟩ : Shape).Idx → EReal
abbrev Row := Fin 256 → EReal

/-- The row length as both programs spell it (the word of 256.0). -/
def c256 : EReal := Ideal.ofBits .f32 0x43800000#32
/-- The variance offset as both programs spell it (the word nearest 1e-5). -/
def eps : EReal := Ideal.ofBits .f32 0x3727C5AC#32

/-- The word of 256.0 denotes the real 256. -/
theorem c256_eq : c256 = ((256 : ℝ) : EReal) := by
  unfold c256; simp [Ideal.ofBits, Ideal.ieee, -EReal.coe_mul]; norm_num

/-- The offset's word denotes a positive real. -/
theorem eps_eq : ∃ r : ℝ, 0 < r ∧ eps = (r : EReal) := by
  unfold eps
  refine ⟨_, ?_, by simp [Ideal.ofBits, Ideal.ieee, -EReal.coe_mul]; rfl⟩
  norm_num

/-- The hidden row: the embedding row times the first weight matrix, plus the first bias. -/
def hid (W1 : Mat 256 256) (b1 : Vect 256) (x : Row) : Row :=
  fun e => (∑ k : Fin 256, x k * W1 (ix2 k e)) + b1 (ix1 e)

/-- The mean of a row. -/
def mean (h : Row) : EReal := Ideal.div (∑ e : Fin 256, h e) c256
/-- A row's entry minus the row's mean. -/
def cen (h : Row) : Row := fun e => h e - mean h
/-- The (biased) variance of a row. -/
def var (h : Row) : EReal := Ideal.div (∑ e : Fin 256, cen h e * cen h e) c256

/-- Normalisation by the reciprocal square root … -/
def normMul (h : Row) : Row := fun e => cen h e * Ideal.rsqrt (var h + eps)
/-- … and by division by the square root. -/
def normDiv (h : Row) : Row := fun e => Ideal.div (cen h e) (Ideal.sqrt (var h + eps))

/-- The affine map, the positive part and the read-out of a normalised row. -/
def head (γ β : Vect 256) (W2 : Mat 256 1) (b2 : Vect 1) (z : Row) : EReal :=
  (∑ e : Fin 256, max (z e * γ (ix1 e) + β (ix1 e)) 0 * W2 (ix2 e (0 : Fin 1))) + b2 (ix1 (0 : Fin 1))

/-- The whole row function, with the product spelling of the normalisation … -/
def outMul (W1 : Mat 256 256) (b1 γ β : Vect 256) (W2 : Mat 256 1) (b2 : Vect 1) (x : Row) : EReal :=
  head γ β W2 b2 (normMul (hid W1 b1 x))
/-- … and with the quotient spelling. -/
def outDiv (W1 : Mat 256 256) (b1 γ β : Vect 256) (W2 : Mat 256 1) (b2 : Vect 1) (x : Row) : EReal :=
  head γ β W2 b2 (normDiv (hid W1 b1 x))

/-- A variance is never negative: a quotient of a sum of squares by 256. -/
theorem var_nonneg (h : Row) : 0 ≤ var h := by
  unfold var
  rw [c256_eq, Ideal.div_coe (by norm_num : (256 : ℝ) ≠ 0)]
  refine EReal.mul_nonneg (Finset.sum_nonneg fun e _ => ?_) (by exact_mod_cast (by norm_num : (0 : ℝ) ≤ 1 / 256))
  exact EReal.mul_nonneg_iff.mpr ((le_total 0 (cen h e)).imp (fun a => ⟨a, a⟩) (fun a => ⟨a, a⟩))

/-- The offset variance is strictly positive. -/
theorem offset_pos (h : Row) : 0 < var h + eps := by
  obtain ⟨r, hr, he⟩ := eps_eq
  rw [he]
  exact lt_of_lt_of_le (by exact_mod_cast hr) (le_add_of_nonneg_left (var_nonneg h))

/-- For a strictly positive extended real v and any c: c · rsqrt v = c / sqrt v. -/
theorem mul_rsqrt_eq_div_sqrt (c v : EReal) (hv : 0 < v) : c * Ideal.rsqrt v = Ideal.div c (Ideal.sqrt v) := by
  induction v using EReal.rec with
  | bot => exact absurd hv (not_lt.mpr bot_le)
  | top =>
    rw [Ideal.rsqrt_top, Ideal.sqrt_top, Ideal.div, if_neg (by simp), EReal.inv_top]
  | coe r =>
    have hr : 0 < r := by exact_mod_cast hv
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hs, one_div]

/-- The two spellings of the normalisation are one function. -/
theorem normMul_eq_normDiv (h : Row) : normMul h = normDiv h :=
  funext fun e => mul_rsqrt_eq_div_sqrt _ _ (offset_pos h)

/-- The two spellings of the row function are one function. -/
theorem outMul_eq_outDiv (W1 : Mat 256 256) (b1 γ β : Vect 256) (W2 : Mat 256 1) (b2 : Vect 1) (x : Row) :
    outMul W1 b1 γ β W2 b2 x = outDiv W1 b1 γ β W2 b2 x := by
  unfold outMul outDiv; rw [normMul_eq_normDiv]

end Cert.Mlp

end
-- ==== Proof.KernelPayload.lean ====
/-
  The kernel body's arithmetic, read at one row of a block.

  The body works on a block of 2000 embedding rows at once: a matrix product with the first weight matrix,
  a bias row broadcast down the block, row sums kept as a column and divided by 256 (mean, then variance of the
  centred entries), the reciprocal square root of the offset variance broadcast along each row, an affine map
  by two more parameter rows, the positive part, a product with a fourth parameter row, a last row sum, and one
  scalar added to every row.  Each stage is named here as a function of whole blocks and read at an index
  (row p, column e); the whole payload at row p is then the row function of the specification applied to row p of
  the embedding block, with the parameter rows as its parameters.
-/
import proofs.«173590_g60120952209874_cont_9to1c4b_465_2_alg».proof.Proof.Gen.KernelIdeal.Skeleton
import proofs.«173590_g60120952209874_cont_9to1c4b_465_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Layout operations at an index -/

/-- A vector kept as a one-column matrix reads, at (p, 0), the vector at p. -/
theorem column_cast_apply {α : Type} {a : ℕ} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) := by
  refine shapeCast_apply x h (ix2 p q) (ix1 p) ?_
  rw [Shape.rowMajor_val_one, Shape.rowMajor_val_two]
  show p.val = p.val * 1 + q.val
  have := q.isLt; omega

/-- A one-column matrix broadcast along its rows reads, at (p, e), the column at p. -/
theorem column_bcast_apply {α : Type} {a b : ℕ} (v : (⟨2, ![a, 1]⟩ : Shape).Idx → α)
    (h : (⟨2, ![a, 1]⟩ : Shape).Broadcasts ⟨2, ![a, b]⟩) (p : Fin a) (e : Fin b) :
    broadcastTo ⟨2, ![a, b]⟩ v h (ix2 p e) = v (ix2 p (0 : Fin 1)) := by
  refine broadcastTo_apply v h (ix2 p e) (ix2 p (0 : Fin 1)) fun ax => ?_
  match ax with
  | ⟨0, _⟩ =>
    show p.val = if a = 1 then 0 else p.val
    split
    · have := p.isLt; omega
    · rfl
  | ⟨1, _⟩ => rfl

/-! ## The stages, as functions of whole blocks -/

abbrev Blk := FVec Ideal S2000x256 .f32
abbrev Col := FVec Ideal S2000x1 .f32
abbrev PRow := Vec Ideal S1x256 .f32

/-- A parameter row as a vector, and as a one-column matrix. -/
def vecOf (r : PRow) : Cert.Mlp.Vect 256 := fun i => r (ix2 (0 : Fin 1) (⟨(i 0).val, (i 0).isLt⟩ : Fin 256))
def matOf (r : PRow) : Cert.Mlp.Mat 256 1 := fun i => r (ix2 (0 : Fin 1) (⟨(i 0).val, (i 0).isLt⟩ : Fin 256))

/-- A parameter row broadcast down the block. -/
def row (r : PRow) : Blk :=
  broadcastTo S2000x256 (shapeCast S1x256 r Facts₀.shapeCasts_S1x256_S1x256) Facts₀.broadcasts_S1x256_S2000x256
theorem row_apply (r : PRow) (p : Fin 2000) (e : Fin 256) : row r (ix2 p e) = r (ix2 (0 : Fin 1) e) := by
  unfold row
  rw [shapeCast_self]
  exact broadcastTo_1b_ab_apply r _ p e

/-- A column broadcast along the rows. -/
def col (c : Col) : Blk := broadcastTo S2000x256 c Facts₀.broadcasts_S2000x1_S2000x256
theorem col_apply (c : Col) (p : Fin 2000) (e : Fin 256) : col c (ix2 p e) = c (ix2 p (0 : Fin 1)) :=
  column_bcast_apply c _ p e

/-- The sum of each row, kept as a column. -/
def rowSum (v : Blk) : Col :=
  shapeCast S2000x1 (multiReduction .add [1] S2000 v 0x00000000#32 Facts₀.reduces_S2000x256_S2000 (.inl rfl) rfl) Facts₀.shapeCasts_S2000_S2000x1
theorem lane_sum_apply (v : Blk) (p : Fin 2000) :
    multiReduction .add [1] S2000 v 0x00000000#32 Facts₀.reduces_S2000x256_S2000 (.inl rfl) rfl (ix1 p) = ∑ e : Fin 256, v (ix2 p e) := by
  refine (Ideal.multiReduction_add_single v 0x00000000#32 Facts₀.reduces_S2000x256_S2000 (.inl rfl) rfl (ix1 p)).trans ?_
  refine Finset.sum_congr rfl fun e _ => congrArg v (funext fun a => Fin.ext ?_)
  match a with
  | ⟨0, _⟩ => rfl
  | ⟨1, _⟩ => rfl
theorem rowSum_apply (v : Blk) (p : Fin 2000) : rowSum v (ix2 p (0 : Fin 1)) = ∑ e : Fin 256, v (ix2 p e) := by
  unfold rowSum
  exact (column_cast_apply _ _ p 0).trans (lane_sum_apply v p)

/-- The hidden block: the embedding block times the first weight matrix, plus the bias row. -/
def hidV (x0 : Vec Ideal S2000x256 .f32) (x1 : Vec Ideal S256x256 .f32) (r0 : PRow) : Blk :=
  addf (matmul (φ₁ := .f32) (φ₂ := .f32) dot_S2000x256_S256x256_S2000x256_1_0_0_1_n_n none
    (shapeCast S2000x256 x0 Facts₀.shapeCasts_S2000x256_S2000x256) x1 (constant S2000x256 .f32 0x00000000#32)) (row r0)

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The matrix product into a zero accumulator, at (p, e): the sum over k of the block's row p times the matrix's column e. -/
theorem product_apply (x0 : FVec Ideal S2000x256 .f32) (x1 : FVec Ideal S256x256 .f32) (p : Fin 2000) (e : Fin 256) :
    matmul (φ₁ := .f32) (φ₂ := .f32) dot_S2000x256_S256x256_S2000x256_1_0_0_1_n_n none x0 x1 (constant S2000x256 .f32 0x00000000#32) (ix2 p e)
      = ∑ k : Fin 256, x0 (ix2 p k) * x1 (ix2 k e) := by
  refine (Ideal.matmul_constant_zero_apply dot_S2000x256_S256x256_S2000x256_1_0_0_1_n_n none x0 x1 (ix2 p e)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p e)
      ((ValueIdx.contrEquiv1 dot_S2000x256_S256x256_S2000x256_1_0_0_1_n_n 256 rfl rfl).symm k) = ix2 p k :=
    funext fun a => Fin.ext (by
      match a with
      | ⟨0, _⟩ => exact lhs_0 _ _
      | ⟨1, _⟩ => exact (lhs_1 _ _).trans hk)
  have er : dot_S2000x256_S256x256_S2000x256_1_0_0_1_n_n.rhsIdx (ix2 p e)
      ((ValueIdx.contrEquiv1 dot_S2000x256_S256x256_S2000x256_1_0_0_1_n_n 256 rfl rfl).symm k) = ix2 k e :=
    funext fun a => Fin.ext (by
      match a with
      | ⟨0, _⟩ => exact (rhs_0 _ _).trans hk
      | ⟨1, _⟩ => exact rhs_1 _ _)
  rw [el, er]

theorem hidV_apply (x0 : Vec Ideal S2000x256 .f32) (x1 : Vec Ideal S256x256 .f32) (r0 : PRow) (p : Fin 2000) (e : Fin 256) :
    hidV x0 x1 r0 (ix2 p e) = Cert.Mlp.hid x1 (vecOf r0) (fun k => x0 (ix2 p k)) e := by
  unfold hidV Cert.Mlp.hid
  rw [addf_apply, shapeCast_self, product_apply, row_apply]
  rfl

/-- The mean of each row, as a column. -/
def meanV (v : Blk) : Col := divf (rowSum v) (broadcast S2000x1 (Scalar.ofBits .f32 0x43800000#32))
theorem meanV_apply (v : Blk) (p : Fin 2000) : meanV v (ix2 p (0 : Fin 1)) = Cert.Mlp.mean (fun e => v (ix2 p e)) := by
  unfold meanV Cert.Mlp.mean
  rw [divf_apply, rowSum_apply]
  rfl

/-- Each entry minus its row's mean. -/
def cenV (v : Blk) : Blk := subf v (col (meanV v))
theorem cenV_apply (v : Blk) (p : Fin 2000) (e : Fin 256) : cenV v (ix2 p e) = Cert.Mlp.cen (fun e => v (ix2 p e)) e := by
  unfold cenV Cert.Mlp.cen
  rw [subf_apply, col_apply, meanV_apply]

/-- The variance of each row, as a column. -/
def varV (v : Blk) : Col := divf (rowSum (mulf (cenV v) (cenV v))) (broadcast S2000x1 (Scalar.ofBits .f32 0x43800000#32))
theorem varV_apply (v : Blk) (p : Fin 2000) : varV v (ix2 p (0 : Fin 1)) = Cert.Mlp.var (fun e => v (ix2 p e)) := by
  unfold varV Cert.Mlp.var
  rw [divf_apply, rowSum_apply]
  simp only [mulf_apply, cenV_apply]
  rfl

/-- The normalised block: centred entries times the reciprocal square root of the row's offset variance. -/
def normV (v : Blk) : Blk :=
  mulf (cenV v) (col (rsqrt (addf (varV v) (broadcast S2000x1 (Scalar.ofBits .f32 0x3727C5AC#32)))))
theorem normV_apply (v : Blk) (p : Fin 2000) (e : Fin 256) : normV v (ix2 p e) = Cert.Mlp.normMul (fun e => v (ix2 p e)) e := by
  unfold normV Cert.Mlp.normMul
  rw [mulf_apply, col_apply, cenV_apply]
  show _ * Ideal.rsqrt (varV v (ix2 p (0 : Fin 1)) + _) = _
  rw [varV_apply]
  rfl

/-- The affine map, the positive part, the product with the read-out row, and the last row sum. -/
def headV (z : Blk) (r1 r2 r3 : PRow) : FVec Ideal S2000 .f32 :=
  multiReduction .add [1] S2000
    (mulf (maximumf (addf (mulf z (row r1)) (row r2)) (broadcast S2000x256 (Scalar.ofBits .f32 0x00000000#32))) (row r3))
    0x00000000#32 Facts₀.reduces_S2000x256_S2000 (.inl rfl) rfl
theorem headV_apply (z : Blk) (r1 r2 r3 : PRow) (p : Fin 2000) :
    headV z r1 r2 r3 (ix1 p) = ∑ e : Fin 256, max (z (ix2 p e) * r1 (ix2 (0 : Fin 1) e) + r2 (ix2 (0 : Fin 1) e)) 0 * r3 (ix2 (0 : Fin 1) e) := by
  unfold headV
  rw [lane_sum_apply]
  refine Finset.sum_congr rfl fun e _ => ?_
  rw [mulf_apply, maximumf_apply, addf_apply, mulf_apply, row_apply, row_apply, row_apply, broadcast_apply]
  show max _ (Ideal.ofBits .f32 0x00000000#32) * _ = _
  rw [Ideal.ofBits_zero_f32]

/-- The body's first payload is the composition of the stages. -/
theorem pay2_eq (x0 : Vec Ideal S2000x256 .f32) (x1 : Vec Ideal S256x256 .f32) (r0 r1 r2 r3 : PRow) :
    k0_pay2 x0 x1 r0 r1 r2 r3 = headV (normV (hidV x0 x1 r0)) r1 r2 r3 := by
  unfold k0_pay2 headV normV varV cenV meanV rowSum col row hidV
  rfl

/-- The scalar the body extracts from its one-entry load is that entry. -/
theorem extract_apply (s : Vec Ideal S1x1 .f32) : extractAt ![0, 0] s Facts₀.inpos_S1x1_p0_0 = s (ix2 (0 : Fin 1) (0 : Fin 1)) := by
  unfold extractAt
  exact congrArg s (funext fun a => Fin.ext (by
    match a with
    | ⟨0, _⟩ => rfl
    | ⟨1, _⟩ => rfl))

/-- The body's stored value at row p: the row function of the specification, of row p of the embedding block. -/
theorem payload_apply (x0 : Vec Ideal S2000x256 .f32) (x1 : Vec Ideal S256x256 .f32) (r0 r1 r2 r3 : PRow)
    (s : Vec Ideal S1x1 .f32) (p : Fin 2000) :
    k0_pay1 (k0_pay2 x0 x1 r0 r1 r2 r3) s (ix2 p (0 : Fin 1))
      = Cert.Mlp.outMul x1 (vecOf r0) (vecOf r1) (vecOf r2) (matOf r3) (fun _ => s (ix2 (0 : Fin 1) (0 : Fin 1)))
          (fun k => x0 (ix2 p k)) := by
  rw [pay2_eq]
  unfold k0_pay1 Cert.Mlp.outMul Cert.Mlp.head
  rw [addf_apply, column_cast_apply, headV_apply, broadcast_apply]
  simp only [normV_apply, hidV_apply]
  rw [extract_apply]
  rfl

end Cert.KernelIdeal.Pay

end
-- ==== Proof.LibScatterSet.lean ====
/-
  A scatter whose combining body returns the update (jnp's `x.at[…].set(v)`), read as a whole array.

  The host's scatter is a left fold over the update indices in row-major order: each update that lands
  inside the operand replaces the element at its result index, an update that lands outside is dropped.
  When the body is "return the update", the value of an element after the fold is the operand's, unless
  some update landed on it, and then it is an update that did. So the scatter equals any array `G` such that
  every landing update agrees with `G` at its result index, and `G` is the operand wherever no update lands.
  Nothing is asked about the order of the updates or about two updates landing on one element: if they do,
  the first hypothesis says they carry the same value there.
-/
import Idealize.ShloMosaic.PureOps.ShapeOps

namespace Idealize.ShloMosaic.ScatterSet

variable {α : Type} {s si u : Shape} {w : Nat}

/-- One step of the fold: the update with row-major number `n` overwrites the element it lands on. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a "return the update" body is the fold of that step. -/
theorem scatter_eq_foldl (d : ScatterDims s si u) (x : s.Idx → α) (idx : IVec si w) (upd : u.Idx → α) :
    Host.scatter d (fun _ b => b) x idx upd = (List.finRange u.numel).foldl (step d idx upd) x := rfl

theorem step_some (d : ScatterDims s si u) (idx : IVec si w) (upd : u.Idx → α) (r : s.Idx → α) (n : Fin u.numel)
    {i : s.Idx} (h : d.resultIdx? (u.rowMajor.symm n) idx = some i) (i' : s.Idx) :
    step d idx upd r n i' = if i' = i then upd (u.rowMajor.symm n) else r i' := by
  unfold step; rw [h]

theorem step_none (d : ScatterDims s si u) (idx : IVec si w) (upd : u.Idx → α) (r : s.Idx → α) (n : Fin u.numel)
    (h : d.resultIdx? (u.rowMajor.symm n) idx = none) : step d idx upd r n = r := by
  unfold step; rw [h]

/-- The fold's invariant. Every element is already `G`'s, or is still the operand's and none of the updates
    taken so far (those of `S`, then those of the list) landed on it. -/
theorem foldl_inv (d : ScatterDims s si u) (x : s.Idx → α) (idx : IVec si w) (upd : u.Idx → α) (G : s.Idx → α)
    (hit : ∀ (j : u.Idx) (i : s.Idx), d.resultIdx? j idx = some i → G i = upd j) :
    ∀ (l : List (Fin u.numel)) (r : s.Idx → α) (S : Fin u.numel → Prop),
      (∀ i, r i = G i ∨ (r i = x i ∧ ∀ n, S n → d.resultIdx? (u.rowMajor.symm n) idx ≠ some i)) →
      ∀ i, l.foldl (step d idx upd) r i = G i ∨
        (l.foldl (step d idx upd) r i = x i ∧ ∀ n, (S n ∨ n ∈ l) → d.resultIdx? (u.rowMajor.symm n) idx ≠ some i) := by
  intro l
  induction l with
  | nil =>
    intro r S h i
    rcases h i with h | ⟨h1, h2⟩
    · exact .inl h
    · exact .inr ⟨h1, fun n hn => h2 n (hn.resolve_right (List.not_mem_nil))⟩
  | cons a l ih =>
    intro r S h i
    rw [List.foldl_cons]
    have hstep : ∀ i', step d idx upd r a i' = G i' ∨
        (step d idx upd r a i' = x i' ∧ ∀ n, (S n ∨ n = a) → d.resultIdx? (u.rowMajor.symm n) idx ≠ some i') := by
      intro i'
      cases hres : d.resultIdx? (u.rowMajor.symm a) idx with
      | none =>
        rw [step_none d idx upd r a hres]
        rcases h i' with h | ⟨h1, h2⟩
        · exact .inl h
        · refine .inr ⟨h1, fun n hn => ?_⟩
          rcases hn with hn | rfl
          · exact h2 n hn
          · rw [hres]; exact fun e => nomatch e
      | some i0 =>
        rw [step_some d idx upd r a hres i']
        by_cases hi : i' = i0
        · rw [if_pos hi, hi]
          exact .inl (hit _ _ hres).symm
        · rw [if_neg hi]
          rcases h i' with h | ⟨h1, h2⟩
          · exact .inl h
          · refine .inr ⟨h1, fun n hn => ?_⟩
            rcases hn with hn | rfl
            · exact h2 n hn
            · rw [hres]; exact fun e => hi (Option.some.inj e).symm
    rcases ih (step d idx upd r a) (fun n => S n ∨ n = a) hstep i with h | ⟨h1, h2⟩
    · exact .inl h
    · refine .inr ⟨h1, fun n hn => h2 n ?_⟩
      rcases hn with hn | hn
      · exact .inl (.inl hn)
      · rcases List.mem_cons.mp hn with rfl | hn
        · exact .inl (.inr rfl)
        · exact .inr hn

/-- THE SCATTER AS ONE ARRAY: it is `G`, when every update that lands agrees with `G` where it lands (`hit`) and
    `G` is the operand wherever nothing lands (`miss`). -/
theorem scatter_set_eq (d : ScatterDims s si u) (x : s.Idx → α) (idx : IVec si w) (upd : u.Idx → α) (G : s.Idx → α)
    (hit : ∀ (j : u.Idx) (i : s.Idx), d.resultIdx? j idx = some i → G i = upd j)
    (miss : ∀ i : s.Idx, (∀ j : u.Idx, d.resultIdx? j idx ≠ some i) → G i = x i) :
    Host.scatter d (fun _ b => b) x idx upd = G := by
  rw [scatter_eq_foldl]
  funext i
  rcases foldl_inv d x idx upd G hit (List.finRange u.numel) x (fun _ => False)
      (fun i => .inr ⟨rfl, fun _ hn => hn.elim⟩) i with h | ⟨h1, h2⟩
  · exact h
  · rw [h1]
    refine (miss i fun j => ?_).symm
    have := h2 (u.rowMajor j) (.inr (List.mem_finRange _))
    rwa [Equiv.symm_apply_apply] at this

end Idealize.ShloMosaic.ScatterSet
-- ==== Proof.KernelParams.lean ====
/-
  The packed parameter array: five rows written one after the other into an 8-by-256 array of zeros.

  Each write is a scatter of a 256-vector at one row index (the index array holds the one number c): update e lands
  at (c, e), inside the array for c < 8, so the scatter replaces row c by the vector and leaves every other row.
-/
import proofs.«173590_g60120952209874_cont_9to1c4b_465_2_alg».proof.Proof.Gen.KernelIdeal
import proofs.«173590_g60120952209874_cont_9to1c4b_465_2_alg».proof.Proof.LibScatterSet
import Idealize.ShloMosaic.Lib.ValueIdx
import Idealize.ShloMosaic.Lib.ValueLayout

noncomputable section

namespace Cert.KernelIdeal.Params

open Cert.KernelIdeal Idealize.ShloMosaic Idealize.ShloMosaic.ValueIdx

/-- Update e of a scatter at row index c lands at (c, e). -/
theorem lands (c : Fin 8) (idx : IVec S1 32) (hidx : ∀ q, (idx q).toInt = (c.val : Int)) (e : Fin 256) :
    scatter_S8x256_S1_S256_0_0_0_0.resultIdx? (ix1 e) idx = some (ix2 c e) := by
  have hs0 : scatter_S8x256_S1_S256_0_0_0_0.start (ix1 e) idx 0 = (c.val : Int) := by
    unfold ScatterDims.start
    rw [dif_pos (show (0 : Fin S8x256.rank) ∈ scatter_S8x256_S1_S256_0_0_0_0.scatterDimsToOperandDims by decide)]
    exact hidx _
  have hs1 : scatter_S8x256_S1_S256_0_0_0_0.start (ix1 e) idx 1 = 0 := by
    unfold ScatterDims.start
    rw [dif_neg (show ¬(1 : Fin S8x256.rank) ∈ scatter_S8x256_S1_S256_0_0_0_0.scatterDimsToOperandDims by decide)]
  have hw0 : scatter_S8x256_S1_S256_0_0_0_0.window (ix1 e) 0 = 0 := by
    unfold ScatterDims.window
    rw [dif_neg (show ¬(0 : Fin S8x256.rank) ∈ scatter_S8x256_S1_S256_0_0_0_0.sKept by decide)]
  have hw1 : scatter_S8x256_S1_S256_0_0_0_0.window (ix1 e) 1 = e.val := by
    unfold ScatterDims.window
    rw [dif_pos (show (1 : Fin S8x256.rank) ∈ scatter_S8x256_S1_S256_0_0_0_0.sKept by decide)]
    rfl
  have hc := c.isLt
  have he := e.isLt
  have h0 : 0 ≤ scatter_S8x256_S1_S256_0_0_0_0.start (ix1 e) idx 0 + scatter_S8x256_S1_S256_0_0_0_0.window (ix1 e) 0
      ∧ scatter_S8x256_S1_S256_0_0_0_0.start (ix1 e) idx 0 + scatter_S8x256_S1_S256_0_0_0_0.window (ix1 e) 0 < S8x256.size 0 := by
    rw [hs0, hw0]; show _ ∧ _ < ((8 : Nat) : Int); omega
  have h1 : 0 ≤ scatter_S8x256_S1_S256_0_0_0_0.start (ix1 e) idx 1 + scatter_S8x256_S1_S256_0_0_0_0.window (ix1 e) 1
      ∧ scatter_S8x256_S1_S256_0_0_0_0.start (ix1 e) idx 1 + scatter_S8x256_S1_S256_0_0_0_0.window (ix1 e) 1 < S8x256.size 1 := by
    rw [hs1, hw1]; show _ ∧ _ < ((256 : Nat) : Int); omega
  have h : ∀ a, 0 ≤ scatter_S8x256_S1_S256_0_0_0_0.start (ix1 e) idx a + scatter_S8x256_S1_S256_0_0_0_0.window (ix1 e) a
      ∧ scatter_S8x256_S1_S256_0_0_0_0.start (ix1 e) idx a + scatter_S8x256_S1_S256_0_0_0_0.window (ix1 e) a < S8x256.size a :=
    fun a => match a with
      | ⟨0, _⟩ => h0
      | ⟨1, _⟩ => h1
  unfold ScatterDims.resultIdx?
  rw [dif_pos h]
  refine congrArg some (funext fun a => Fin.ext ?_)
  match a with
  | ⟨0, _⟩ => show (scatter_S8x256_S1_S256_0_0_0_0.start (ix1 e) idx 0 + scatter_S8x256_S1_S256_0_0_0_0.window (ix1 e) 0).toNat = c.val; rw [hs0, hw0]; omega
  | ⟨1, _⟩ => show (scatter_S8x256_S1_S256_0_0_0_0.start (ix1 e) idx 1 + scatter_S8x256_S1_S256_0_0_0_0.window (ix1 e) 1).toNat = e.val; rw [hs1, hw1]; omega

/-- An 8-by-256 array with row c replaced by a 256-vector. -/
def setRow {α : Type} (c : Fin 8) (x : S8x256.Idx → α) (u : S256.Idx → α) : S8x256.Idx → α :=
  fun i => if (i 0).val = c.val then u (ix1 (⟨(i 1).val, (i 1).isLt⟩ : Fin 256)) else x i

theorem setRow_apply {α : Type} (c : Fin 8) (x : S8x256.Idx → α) (u : S256.Idx → α) (r : Fin 8) (e : Fin 256) :
    setRow c x u (ix2 r e) = if r.val = c.val then u (ix1 e) else x (ix2 r e) := rfl

/-- The scatter of a 256-vector at the one row index c is the array with row c replaced. -/
theorem scatter_row {α : Type} (c : Fin 8) (x : S8x256.Idx → α) (idx : IVec S1 32) (hidx : ∀ q, (idx q).toInt = (c.val : Int))
    (u : S256.Idx → α) :
    Host.scatter scatter_S8x256_S1_S256_0_0_0_0 (fun _ b => b) x idx u = setRow c x u := by
  refine ScatterSet.scatter_set_eq _ x idx u _ ?_ ?_
  · intro j i hj
    obtain ⟨e, rfl⟩ : ∃ e : Fin 256, j = ix1 e := ⟨j 0, eq_ix1 j⟩
    rw [lands c idx hidx e] at hj
    obtain rfl := Option.some.inj hj
    rw [setRow_apply, if_pos rfl]
  · intro i hi
    unfold setRow
    rw [if_neg]
    intro hc
    refine hi (ix1 (⟨(i 1).val, (i 1).isLt⟩ : Fin 256)) ?_
    rw [lands c idx hidx]
    refine congrArg some (funext fun a => Fin.ext ?_)
    match a with
    | ⟨0, _⟩ => exact hc.symm
    | ⟨1, _⟩ => rfl

/-- The one-entry index array holding the word w reads w everywhere. -/
theorem index_apply (w : BitVec 32) (q : S1.Idx) :
    broadcastInDim S1 ![] Facts₀.bcast_S_S1 (constantI S_ 32 w) q = w := rfl

end Cert.KernelIdeal.Params

end
-- ==== Proof.KernelBlocks.lean ====
/-
  From the blocks the grid points write to the whole result array.

  Grid point t stages rows 2000·t … 2000·t + 1999 of the reshaped embedding, the whole first weight matrix and the whole
  packed parameter array, and writes back rows 2000·t … 2000·t + 1999 of a 200000-by-1 array.  Row p of what it
  writes is the row function of the specification applied to row 2000·t + p of the reshaped embedding.  The hundred
  blocks tile the array, so the array ends holding that function of every row; the host then reads the column as a
  4-by-50000 array, and the reshaped embedding's row 50000·b + n is row (b, n) of the embedding.  The packed parameter
  array's rows 0 to 4 are the first bias, the two affine parameters, the read-out weights and the last bias.
-/
import proofs.«173590_g60120952209874_cont_9to1c4b_465_2_alg».proof.Proof.Gen.KernelIdeal.Frame
import proofs.«173590_g60120952209874_cont_9to1c4b_465_2_alg».proof.Proof.KernelPayload
import proofs.«173590_g60120952209874_cont_9to1c4b_465_2_alg».proof.Proof.KernelParams
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pay Cert.KernelIdeal.Params

variable (m : (ℓ : Loc nD τ sig) → Buf (Elt Ideal) ℓ) (ρ : Dev nD → PrngReg)

theorem hz : (![0, 0] : Fin 2 → Nat) = fun _ => 0 := funext fun a => by fin_cases a <;> rfl

/-! ## The specification over the arrays the region finds -/

/-- Row r of an 8-by-256 array as a vector, and as a one-column matrix. -/
def rowv (Pm : S8x256.Idx → EReal) (r : Fin 8) : Cert.Mlp.Vect 256 := fun i => Pm (ix2 r (⟨(i 0).val, (i 0).isLt⟩ : Fin 256))
def rowm (Pm : S8x256.Idx → EReal) (r : Fin 8) : Cert.Mlp.Mat 256 1 := fun i => Pm (ix2 r (⟨(i 0).val, (i 0).isLt⟩ : Fin 256))

/-- What the 200000-by-1 result array ends holding: at row i, the row function of row i of the reshaped embedding. -/
def GK (X : S200000x256.Idx → EReal) (W : S256x256.Idx → EReal) (Pm : S8x256.Idx → EReal) : S200000x1.Idx → EReal :=
  fun i => Cert.Mlp.outMul W (rowv Pm 0) (rowv Pm 1) (rowv Pm 2) (rowm Pm 3) (fun _ => Pm (ix2 (4 : Fin 8) (0 : Fin 256)))
    (fun k => X (ix2 (⟨(i 0).val, (i 0).isLt⟩ : Fin 200000) k))

/-! ## One grid point, over variables -/

/-- A one-row load of the parameter block at row r reads that row. -/
theorem ld_row (x2 : Vec Ideal S8x256 .f32) (r : Fin 8) (inb : ∀ a, (![r.val, 0] : Fin 2 → Nat) a + S1x256.size a ≤ S8x256.size a)
    (e : Fin 256) :
    (View.ld x2 (Rect.unit (s := S8x256) ![r.val, 0] S1x256.size inb) : S1x256.Idx → EReal) (ix2 (0 : Fin 1) e) = x2 (ix2 r e) := by
  show x2 ((Rect.unit (s := S8x256) ![r.val, 0] S1x256.size inb).idx (ix2 (0 : Fin 1) e)) = _
  refine congrArg x2 (funext fun a => Fin.ext ?_)
  match a with
  | ⟨0, _⟩ => show r.val + 1 * 0 = r.val; omega
  | ⟨1, _⟩ => show 0 + 1 * e.val = e.val; omega

/-- The one-entry load at (4, 0) reads that entry. -/
theorem ld_entry (x2 : Vec Ideal S8x256 .f32) (inb : ∀ a, (![4, 0] : Fin 2 → Nat) a + S1x1.size a ≤ S8x256.size a) :
    (View.ld x2 (Rect.unit (s := S8x256) ![4, 0] S1x1.size inb) : S1x1.Idx → EReal) (ix2 (0 : Fin 1) (0 : Fin 1))
      = x2 (ix2 (4 : Fin 8) (0 : Fin 256)) := by
  show x2 ((Rect.unit (s := S8x256) ![4, 0] S1x1.size inb).idx (ix2 (0 : Fin 1) (0 : Fin 1))) = _
  refine congrArg x2 (funext fun a => Fin.ext ?_)
  match a with
  | ⟨0, _⟩ => rfl
  | ⟨1, _⟩ => rfl

/-- What one grid point leaves in the output block at row j: the specification's value at array row i, when row j of
    the staged embedding block is row i of the array and the two other staged blocks are their whole arrays. -/
theorem point_eq (x0 : Vec Ideal S2000x256 .f32) (x1 : Vec Ideal S256x256 .f32) (x2 : Vec Ideal S8x256 .f32)
    (X : S200000x256.Idx → EReal) (W : S256x256.Idx → EReal) (Pm : S8x256.Idx → EReal)
    (j : S2000x1.Idx) (i : S200000x1.Idx)
    (h0 : ∀ k : Fin 256, x0 (ix2 (⟨(j 0).val, (j 0).isLt⟩ : Fin 2000) k) = X (ix2 (⟨(i 0).val, (i 0).isLt⟩ : Fin 200000) k))
    (h1 : (x1 : S256x256.Idx → EReal) = W) (h2 : (x2 : S8x256.Idx → EReal) = Pm) :
    k0_pay1 (k0_pay2 (View.ld x0 r0_0) (View.ld x1 r0_1) (View.ld x2 r0_2) (View.ld x2 r0_3) (View.ld x2 r0_4) (View.ld x2 r0_5))
        (View.ld x2 r0_6) j = GK X W Pm i := by
  subst h1 h2
  obtain ⟨p, q, rfl⟩ : ∃ (p : Fin 2000) (q : Fin 1), j = ix2 p q := ⟨j 0, j 1, eq_ix2 j⟩
  obtain rfl : q = 0 := Subsingleton.elim _ _
  rw [View.ld_unit_zero (S := S2000x256) hz, View.ld_unit_zero (S := S256x256) hz, payload_apply]
  unfold GK
  have e0 : vecOf (View.ld x2 r0_2) = rowv x2 0 := funext fun i => ld_row x2 0 _ _
  have e1 : vecOf (View.ld x2 r0_3) = rowv x2 1 := funext fun i => ld_row x2 1 _ _
  have e2 : vecOf (View.ld x2 r0_4) = rowv x2 2 := funext fun i => ld_row x2 2 _ _
  have e3 : matOf (View.ld x2 r0_5) = rowm x2 3 := funext fun i => ld_row x2 3 _ _
  rw [e0, e1, e2, e3, ld_entry]
  exact congrArg _ (funext fun k => h0 k)

/-! ## The windows' blocks as parts of their arrays -/

/-- The printed index maps over the grid: the embedding's and the result's block index is the point's number on
    the row axis, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row x of the embedding block at point t is row 2000·t + x of the reshaped embedding. -/
theorem iblk0_apply (c : Dev nD) (t : Fin cfg0.N) (x : S2000x256.Idx) (k : S200000x256.Idx)
    (hk0 : (k 0).val = 2000 * t.val + (x 0).val) (hk1 : (k 1).val = (x 1).val) :
    (iblk m c 0 t : Vec Ideal S2000x256 .f32) x = (V m c main_v0 : S200000x256.Idx → EReal) k := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The weight block at every point is the whole weight matrix. -/
theorem iblk1_eq (c : Dev nD) (t : Fin cfg0.N) :
    ((iblk m c 1 t : Vec Ideal S256x256 .f32) : S256x256.Idx → EReal) = V m c main_arg1 := by
  obtain ⟨-, -, e0, e1, -⟩ := idx_facts t
  funext x
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The parameter block at every point is the whole packed parameter array. -/
theorem iblk2_eq (c : Dev nD) (t : Fin cfg0.N) :
    ((iblk m c 2 t : Vec Ideal S8x256 .f32) : S8x256.Idx → EReal) = V m c main_v14 := by
  obtain ⟨-, -, -, -, e0, e1, -⟩ := idx_facts t
  funext x
  unfold iblk
  rw [View.read_apply]
  show V m c main_v14 _ = V m c main_v14 _
  refine congrArg (V m c main_v14) (funext fun a => Fin.ext ?_)
  match a with
  | ⟨0, _⟩ => show win0_2.index t (0 : Fin 2) * 8 + 1 * (x 0).val = (x 0).val; rw [e0]; omega
  | ⟨1, _⟩ => show win0_2.index t (1 : Fin 2) * 256 + 1 * (x 1).val = (x 1).val; rw [e1]; omega

/-! ## What each point writes back, the cover, the array after the region -/

/-- Point t writes back block t of the specification over the arrays the region finds. -/
theorem flushed_eq (c : Dev nD) (t : Fin cfg0.N) :
    (dats m 0 c).flushed 3 t
      = ((cfg0.win 3).blk t).view.read (Elt Ideal) (GK (V m c main_v0) (V m c main_arg1) (V m c main_v14)) := by
  show (cfg0.win 3).cut (grid0.coords t) ((dats m 0 c).after 3 t) = _
  rw [after0_3]
  unfold out0_3
  rw [View.canon_unit_zero hz]
  obtain ⟨-, -, -, -, -, -, e0, e1⟩ := idx_facts t
  funext j
  rw [View.read_apply]
  refine point_eq (iblk m c 0 t) (iblk m c 1 t) (iblk m c 2 t) (V m c main_v0) (V m c main_arg1) (V m c main_v14) _ _
    (fun k => ?_) (iblk1_eq m c t) (iblk2_eq m c t)
  refine iblk0_apply m c t _ _ ?_ rfl
  show win0_3.index t (0 : Fin 2) * 2000 + 1 * (j 0).val = 2000 * t.val + (j 0).val
  rw [e0]; omega

/-- An index of the result array is in point t's block iff its coordinates are in the block's ranges. -/
theorem mem_blk (t : Fin cfg0.N) (i : S200000x1.Idx) :
    i ∈ ((cfg0.win 3).blk t).view.set ↔ ∀ a : Fin 2, win0_3.index t a * S2000x1.size a ≤ (i a).val
      ∧ (i a).val < win0_3.index t a * S2000x1.size a + S2000x1.size a := by
  show i ∈ ((View.whole main_v15).slice (win0_3.rect t)).set ↔ _
  rw [View.set_slice_whole, Rect.mem_set_unit]
  exact Iff.rfl

/-- Every row of the result array is in some point's block: row r is in block r / 2000. -/
theorem cover (i : S200000x1.Idx) : ∃ t : Fin cfg0.N, (cfg0.win 3).flush t = true ∧ i ∈ ((cfg0.win 3).blk t).view.set := by
  have h0 : (i 0).val < 200000 := (i 0).isLt
  have h1 : (i 1).val < 1 := (i 1).isLt
  have hN : cfg0.N = 100 := N_0
  refine ⟨⟨(i 0).val / 2000, by rw [hN]; omega⟩, flush0_3 _, ?_⟩
  rw [mem_blk]
  obtain ⟨-, -, -, -, -, -, e0, e1⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 1 ≤ (i 1).val ∧ (i 1).val < win0_3.index _ (1 : Fin 2) * 1 + 1
    rw [e1]; omega

/-- The result array after the region. -/
theorem final (c : Dev nD) : (dats m 0 c).arrAt 3 cfg0.N = GK (V m c main_v0) (V m c main_arg1) (V m c main_v14) :=
  (dats m 0 c).arrAt_eq_of_cover 3 _ (fun t _ => flushed_eq m c t) cover

end Cert.KernelIdeal.Blocks

end
-- ==== Proof.KernelValue.lean ====
/-
  The kernel program's result as one function of its argument arrays.

  Before the region the host reshapes the embedding to 200000 rows and packs five parameter rows into an 8-by-256
  array; after it the host reads the 200000-by-1 result as a 4-by-50000 array.  Row 50000·b + n of the reshaped embedding
  is row (b, n) of the embedding, rows 0 to 4 of the packed array are the first bias, the two affine parameters, the
  read-out weights (a 256-by-1 matrix read as a vector) and the last bias repeated along the row, so the result at (b, n)
  is the specification's row function, in its product spelling, of row (b, n) of the embedding and the argument arrays.
-/
import proofs.«173590_g60120952209874_cont_9to1c4b_465_2_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Pay Cert.KernelIdeal.Params Cert.KernelIdeal.Blocks

variable (m : (ℓ : Loc nD τ sig) → Buf (Elt Ideal) ℓ) (ρ : Dev nD → PrngReg)

/-- The kernel program's result array as a function of the argument arrays: at (b, n) the row function of row (b, n). -/
def G (a0 : FVec Ideal S4x50000x256 .f32) (a1 : FVec Ideal S256x256 .f32) (a2 a3 a4 : FVec Ideal S256 .f32)
    (a5 : FVec Ideal S256x1 .f32) (a6 : FVec Ideal S1 .f32) : FVec Ideal S4x50000 .f32 :=
  fun j => Cert.Mlp.outMul a1 a2 a3 a4 a5 a6
    (fun k => a0 (ix3 (⟨(j 0).val, (j 0).isLt⟩ : Fin 4) (⟨(j 1).val, (j 1).isLt⟩ : Fin 50000) k))

theorem G_apply (a0 : FVec Ideal S4x50000x256 .f32) (a1 : FVec Ideal S256x256 .f32) (a2 a3 a4 : FVec Ideal S256 .f32)
    (a5 : FVec Ideal S256x1 .f32) (a6 : FVec Ideal S1 .f32) (b : Fin 4) (n : Fin 50000) :
    G a0 a1 a2 a3 a4 a5 a6 (ix2 b n) = Cert.Mlp.outMul a1 a2 a3 a4 a5 a6 (fun k => a0 (ix3 b n k)) := rfl

/-! ## The arrays the region finds -/

/-- The reshaped embedding. -/
theorem V_v0 (c : Dev nD) : (V m c main_v0 : S200000x256.Idx → EReal)
    = shapeCast S200000x256 (m ((c.tc : Thread nD τ).loc main_arg0)) Facts₀.shapeCasts_S4x50000x256_S200000x256 := by
  show StableHlo.after hostOps0 (fun b => m (c, b)) (Proc.devRef .tc main_v0) = _
  after_results
  rfl

/-- One parameter row written at the row index spelt by the word w. -/
theorem scatter_at {α : Type} (r : Fin 8) (w : BitVec 32) (hw : w.toInt = (r.val : Int)) (x : S8x256.Idx → α) (u : S256.Idx → α) :
    Host.scatter scatter_S8x256_S1_S256_0_0_0_0 (fun _ b => b) x (broadcastInDim S1 ![] Facts₀.bcast_S_S1 (constantI S_ 32 w)) u
      = setRow r x u :=
  scatter_row r x _ (fun _ => hw) u

set_option maxHeartbeats 1600000 in
/-- The packed parameter array: five rows set, one after the other, in an array of zeros. -/
theorem V_v14 (c : Dev nD) : (V m c main_v14 : S8x256.Idx → EReal)
    = setRow 4 (setRow 3 (setRow 2 (setRow 1 (setRow 0
        (broadcastInDim S8x256 ![] Facts₀.bcast_S_S8x256 (constant (F := Ideal) S_ .f32 0x00000000#32))
        (m ((c.tc : Thread nD τ).loc main_arg2))) (m ((c.tc : Thread nD τ).loc main_arg3))) (m ((c.tc : Thread nD τ).loc main_arg4)))
        (shapeCast S256 (m ((c.tc : Thread nD τ).loc main_arg5)) Facts₀.shapeCasts_S256x1_S256))
        (broadcastInDim S256 ![] Facts₀.bcast_S_S256 (shapeCast S_ (m ((c.tc : Thread nD τ).loc main_arg6)) Facts₀.shapeCasts_S1_S_)) := by
  show StableHlo.after hostOps0 (fun b => m (c, b)) (Proc.devRef .tc main_v14) = _
  after_results_simp
  rw [scatter_at 4 4#32 (by decide), scatter_at 3 3#32 (by decide), scatter_at 2 2#32 (by decide), scatter_at 1 1#32 (by decide),
    scatter_at 0 0#32 (by decide)]
  rfl

/-! ## The packed array's rows -/

/-- The packed parameter array over variables. -/
def packed (a2 a3 a4 : FVec Ideal S256 .f32) (a5 : FVec Ideal S256x1 .f32) (a6 : FVec Ideal S1 .f32) : S8x256.Idx → EReal :=
  setRow 4 (setRow 3 (setRow 2 (setRow 1 (setRow 0
    (broadcastInDim S8x256 ![] Facts₀.bcast_S_S8x256 (constant (F := Ideal) S_ .f32 0x00000000#32)) a2) a3) a4)
    (shapeCast S256 a5 Facts₀.shapeCasts_S256x1_S256))
    (broadcastInDim S256 ![] Facts₀.bcast_S_S256 (shapeCast S_ a6 Facts₀.shapeCasts_S1_S_))

theorem V_v14_packed (c : Dev nD) : (V m c main_v14 : S8x256.Idx → EReal)
    = packed (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := V_v14 m c

/-- A 256-by-1 matrix read as a vector: entry e is the matrix at (e, 0). -/
theorem flat_apply (a5 : S256x1.Idx → EReal) (h : S256x1.ShapeCasts S256) (e : Fin 256) :
    shapeCast S256 a5 h (ix1 e) = a5 (ix2 e (0 : Fin 1)) := by
  refine shapeCast_apply a5 h (ix1 e) (ix2 e (0 : Fin 1)) ?_
  rw [Shape.rowMajor_val_two, Shape.rowMajor_val_one]
  show e.val * 1 + 0 = e.val
  omega

/-- A one-entry vector read as a scalar and repeated along a row: every entry is the one entry. -/
theorem splat_apply (a6 : S1.Idx → EReal) (h : S_.BroadcastsInDim S256 (![] : Fin 0 → Fin S256.rank)) (h' : S1.ShapeCasts S_) (e : Fin 256) :
    broadcastInDim S256 ![] h (shapeCast S_ a6 h') (ix1 e) = a6 (ix1 (0 : Fin 1)) := by
  refine (broadcastInDim_apply ![] h _ (ix1 e) ix0 (fun a => a.elim0)).trans ?_
  refine shapeCast_apply a6 h' ix0 (ix1 (0 : Fin 1)) ?_
  rw [Shape.rowMajor_val_one]
  have h1 : (S_.rowMajor ix0).val < 1 := (S_.rowMajor ix0).isLt
  show 0 = (S_.rowMajor ix0).val
  omega

theorem packed_row0 (a2 a3 a4 : FVec Ideal S256 .f32) (a5 : FVec Ideal S256x1 .f32) (a6 : FVec Ideal S1 .f32) :
    rowv (packed a2 a3 a4 a5 a6) 0 = a2 := by
  funext i
  obtain ⟨e, rfl⟩ : ∃ e : Fin 256, i = ix1 e := ⟨i 0, eq_ix1 i⟩
  show packed a2 a3 a4 a5 a6 (ix2 (0 : Fin 8) e) = a2 (ix1 e)
  unfold packed
  rw [setRow_apply, if_neg (show ¬((0 : Fin 8).val = (4 : Fin 8).val) by decide),
    setRow_apply, if_neg (show ¬((0 : Fin 8).val = (3 : Fin 8).val) by decide),
    setRow_apply, if_neg (show ¬((0 : Fin 8).val = (2 : Fin 8).val) by decide),
    setRow_apply, if_neg (show ¬((0 : Fin 8).val = (1 : Fin 8).val) by decide),
    setRow_apply, if_pos rfl]

theorem packed_row1 (a2 a3 a4 : FVec Ideal S256 .f32) (a5 : FVec Ideal S256x1 .f32) (a6 : FVec Ideal S1 .f32) :
    rowv (packed a2 a3 a4 a5 a6) 1 = a3 := by
  funext i
  obtain ⟨e, rfl⟩ : ∃ e : Fin 256, i = ix1 e := ⟨i 0, eq_ix1 i⟩
  show packed a2 a3 a4 a5 a6 (ix2 (1 : Fin 8) e) = a3 (ix1 e)
  unfold packed
  rw [setRow_apply, if_neg (show ¬((1 : Fin 8).val = (4 : Fin 8).val) by decide),
    setRow_apply, if_neg (show ¬((1 : Fin 8).val = (3 : Fin 8).val) by decide),
    setRow_apply, if_neg (show ¬((1 : Fin 8).val = (2 : Fin 8).val) by decide),
    setRow_apply, if_pos rfl]

theorem packed_row2 (a2 a3 a4 : FVec Ideal S256 .f32) (a5 : FVec Ideal S256x1 .f32) (a6 : FVec Ideal S1 .f32) :
    rowv (packed a2 a3 a4 a5 a6) 2 = a4 := by
  funext i
  obtain ⟨e, rfl⟩ : ∃ e : Fin 256, i = ix1 e := ⟨i 0, eq_ix1 i⟩
  show packed a2 a3 a4 a5 a6 (ix2 (2 : Fin 8) e) = a4 (ix1 e)
  unfold packed
  rw [setRow_apply, if_neg (show ¬((2 : Fin 8).val = (4 : Fin 8).val) by decide),
    setRow_apply, if_neg (show ¬((2 : Fin 8).val = (3 : Fin 8).val) by decide),
    setRow_apply, if_pos rfl]

theorem packed_row3 (a2 a3 a4 : FVec Ideal S256 .f32) (a5 : FVec Ideal S256x1 .f32) (a6 : FVec Ideal S1 .f32) :
    rowm (packed a2 a3 a4 a5 a6) 3 = a5 := by
  funext i
  obtain ⟨e, q, rfl⟩ : ∃ (e : Fin 256) (q : Fin 1), i = ix2 e q := ⟨i 0, i 1, eq_ix2 i⟩
  obtain rfl : q = 0 := Subsingleton.elim _ _
  show packed a2 a3 a4 a5 a6 (ix2 (3 : Fin 8) e) = a5 (ix2 e (0 : Fin 1))
  unfold packed
  rw [setRow_apply, if_neg (show ¬((3 : Fin 8).val = (4 : Fin 8).val) by decide),
    setRow_apply, if_pos rfl, flat_apply]

theorem packed_entry (a2 a3 a4 : FVec Ideal S256 .f32) (a5 : FVec Ideal S256x1 .f32) (a6 : FVec Ideal S1 .f32) :
    (fun _ => packed a2 a3 a4 a5 a6 (ix2 (4 : Fin 8) (0 : Fin 256)) : Cert.Mlp.Vect 1) = a6 := by
  funext i
  obtain ⟨q, rfl⟩ : ∃ q : Fin 1, i = ix1 q := ⟨i 0, eq_ix1 i⟩
  obtain rfl : q = 0 := Subsingleton.elim _ _
  show packed a2 a3 a4 a5 a6 (ix2 (4 : Fin 8) (0 : Fin 256)) = a6 (ix1 (0 : Fin 1))
  unfold packed
  rw [setRow_apply, if_pos rfl, splat_apply]

/-- Over the packed array the block-level specification is the row function of the argument arrays. -/
theorem GK_packed (X : S200000x256.Idx → EReal) (W : S256x256.Idx → EReal) (a2 a3 a4 : FVec Ideal S256 .f32)
    (a5 : FVec Ideal S256x1 .f32) (a6 : FVec Ideal S1 .f32) (i : S200000x1.Idx) :
    GK X W (packed a2 a3 a4 a5 a6) i
      = Cert.Mlp.outMul W a2 a3 a4 a5 a6 (fun k => X (ix2 (⟨(i 0).val, (i 0).isLt⟩ : Fin 200000) k)) := by
  unfold GK
  rw [packed_row0, packed_row1, packed_row2, packed_row3, packed_entry]

/-! ## After the region -/

/-- The program's result buffer is the result array read as 4 by 50000. -/
theorem tail_eq (c : Dev nD) : Pipeline.afterTail₀ cfgs (dats m) 0 (V0 m) [hostOps1] c main_v16
    = shapeCast S4x50000 ((dats m 0 c).arrAt 3 cfg0.N) Facts₀.shapeCasts_S200000x1_S4x50000 := by
  unfold Pipeline.afterTail₀
  show StableHlo.after hostOps1 _ (Proc.devRef .tc main_v16) = _
  after_results
  have e := Pipeline.withArrays_arr spec0 launch0.win.arr_inj c (V0 m c) (fun w => (dats m 0 c).arrAt w cfg0.N) 3
  exact congrArg (fun X => shapeCast S4x50000 X Facts₀.shapeCasts_S200000x1_S4x50000) e

/-- Row 50000·b + n of the reshaped embedding is row (b, n) of the embedding. -/
theorem reshaped_row (a0 : S4x50000x256.Idx → EReal) (h : S4x50000x256.ShapeCasts S200000x256) (b : Fin 4) (n : Fin 50000)
    (r : Fin 200000) (hr : r.val = b.val * 50000 + n.val) (k : Fin 256) :
    shapeCast S200000x256 a0 h (ix2 r k) = a0 (ix3 b n k) := by
  refine shapeCast_apply a0 h (ix2 r k) (ix3 b n k) ?_
  rw [Shape.rowMajor_val_three, Shape.rowMajor_val_two]
  show (b.val * 50000 + n.val) * 256 + k.val = r.val * 256 + k.val
  rw [hr]

/-- The program's result buffer, as the function of the argument arrays. -/
theorem result_eq (c : Dev nD) : Pipeline.afterTail₀ cfgs (dats m) 0 (V0 m) [hostOps1] c main_v16
    = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [tail_eq, final, V_v14_packed, V_main_arg1, V_v0]
  funext j
  obtain ⟨b, n, rfl⟩ : ∃ (b : Fin 4) (n : Fin 50000), j = ix2 b n := ⟨j 0, j 1, eq_ix2 j⟩
  have hb := b.isLt
  have hn := n.isLt
  rw [shapeCast_apply _ _ (ix2 b n) (ix2 (⟨b.val * 50000 + n.val, by omega⟩ : Fin 200000) (0 : Fin 1)) (by
    rw [Shape.rowMajor_val_two, Shape.rowMajor_val_two]
    show (b.val * 50000 + n.val) * 1 + 0 = b.val * 50000 + n.val
    omega)]
  rw [GK_packed, G_apply]
  exact congrArg _ (funext fun k => reshaped_row _ _ b n _ rfl k)

/-! ## The run -/

/-- Every weakly fair execution of the kernel program terminates with the result buffer at the function of the
    arguments' launch contents, and the arguments unchanged. -/
theorem run : θ_run (defs (F := Ideal)) (onTc (τ := τ) (main (F := Ideal))) ⟨m, fun _ => 0, ρ⟩ (fun r => ∀ c : Dev nD,
      r.2.mem ((c.tc : Thread nD τ).loc main_v16)
          = G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Val

end
-- ==== Proof.RefRun.lean ====
/-
  The reference program's @main as one straight line of its fifty-six host operations (the three outlined
  functions' operations written at their call sites over the calls' own buffers), and its run: every weakly
  fair execution terminates with each buffer at the operations' fold over the launch contents.
-/
import proofs.«173590_g60120952209874_cont_9to1c4b_465_2_alg».proof.ReferenceIdeal
import proofs.«173590_g60120952209874_cont_9to1c4b_465_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order: eleven of its own, the variance function's twenty with the select function's
    three inside it, fourteen of its own, the positive-part function's three, five of its own. -/
abbrev ops : List (HloOp τ sig (Elt F)) :=
  [ StableHlo.binary main_arg0 main_arg1 main_v0 ((fun l r => Host.dotGeneral dot_S4x50000x256_S256x256_S4x50000x256_2_0_01_1_n_n none l r) : (⟨S4x50000x256, .f32⟩ : BufTy).Contents (Elt F) → (⟨S256x256, .f32⟩ : BufTy).Contents (Elt F) → (⟨S4x50000x256, .f32⟩ : BufTy).Contents (Elt F)),
    StableHlo.unary main_arg2 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S4x50000x256 ![0, 1, 2] bcast_S1x1x256_S4x50000x256_0_1_2 : (⟨S1x1x256, .f32⟩ : BufTy).Contents (Elt F) → (⟨S4x50000x256, .f32⟩ : BufTy).Contents (Elt F)),
    StableHlo.binary main_v0 main_v2 main_v3 (addf : (⟨S4x50000x256, .f32⟩ : BufTy).Contents (Elt F) → (⟨S4x50000x256, .f32⟩ : BufTy).Contents (Elt F) → (⟨S4x50000x256, .f32⟩ : BufTy).Contents (Elt F)),
    StableHlo.nullary main_cst (constant S_ .f32 0x00000000#32),
    StableHlo.binary main_v3 main_cst main_v4 ((fun x v => Host.reduceAdd x v reducesTo_S4x50000x256_S4x50000_d2 h_S_) : (⟨S4x50000x256, .f32⟩ : BufTy).Contents (Elt F) → (⟨S_, .f32⟩ : BufTy).Contents (Elt F) → (⟨S4x50000, .f32⟩ : BufTy).Contents (Elt F)),
    StableHlo.unary main_v4 main_v5 (broadcastInDim S4x50000x1 ![0, 1] bcast_S4x50000_S4x50000x1_0_1 : (⟨S4x50000, .f32⟩ : BufTy).Contents (Elt F) → (⟨S4x50000x1, .f32⟩ : BufTy).Contents (Elt F)),
    StableHlo.nullary main_cst_0 (constant S_ .f32 0x43800000#32),
    StableHlo.unary main_cst_0 main_v6 (broadcastInDim S4x50000x1 ![] bcast_S_S4x50000x1 : (⟨S_, .f32⟩ : BufTy).Contents (Elt F) → (⟨S4x50000x1, .f32⟩ : BufTy).Contents (Elt F)),
    StableHlo.binary main_v5 main_v6 main_v7 (Host.divf : (⟨S4x50000x1, .f32⟩ : BufTy).Contents (Elt F) → (⟨S4x50000x1, .f32⟩ : BufTy).Contents (Elt F) → (⟨S4x50000x1, .f32⟩ : BufTy).Contents (Elt F)),
    StableHlo.nullary main_c (constantI S_ 32 0#32),
    StableHlo.TRef.nullary main_call0.cst (constant S_ .f32 0x00000000#32),
    StableHlo.TRef.binary (.of main_v3 : StableHlo.TRef sig ⟨S4x50000x256, .f32⟩) main_call0.cst main_call0.v0 (fun x v => Host.reduceAdd x v reducesTo_S4x50000x256_S4x50000_d2 h_S_),
    StableHlo.TRef.unary main_call0.v0 main_call0.v1 (broadcastInDim S4x50000x1 ![0, 1] bcast_S4x50000_S4x50000x1_0_1),
    StableHlo.TRef.nullary main_call0.cst_0 (constant S_ .f32 0x43800000#32),
    StableHlo.TRef.unary main_call0.cst_0 main_call0.v2 (broadcastInDim S4x50000x1 ![] bcast_S_S4x50000x1),
    StableHlo.TRef.binary main_call0.v1 main_call0.v2 main_call0.v3 Host.divf,
    StableHlo.TRef.unary main_call0.v3 main_call0.v4 (broadcastInDim S4x50000x256 ![0, 1, 2] bcast_S4x50000x1_S4x50000x256_0_1_2),
    StableHlo.TRef.binary (.of main_v3 : StableHlo.TRef sig ⟨S4x50000x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x50000x256_S4x50000_d2 h_S_),
    StableHlo.TRef.unary main_call0.v9 main_call0.v10 (broadcastInDim S4x50000x1 ![0, 1] bcast_S4x50000_S4x50000x1_0_1),
    StableHlo.TRef.unary main_call0.v8 main_call0.v11 (broadcastInDim S4x50000x1 ![] bcast_S_S4x50000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x50000x1 ![] bcast_S_S4x50000x1),
    StableHlo.TRef.ternary main_call0.v13 main_call0.v12 main_call0.call0.v1 main_call0.call0.v2 (fun p a b => select (broadcastInDim S4x50000x1 ![] bcast_S_S4x50000x1 p) a b),
    StableHlo.unary main_v7 main_v9 (broadcastInDim S4x50000x256 ![0, 1, 2] bcast_S4x50000x1_S4x50000x256_0_1_2 : (⟨S4x50000x1, .f32⟩ : BufTy).Contents (Elt F) → (⟨S4x50000x256, .f32⟩ : BufTy).Contents (Elt F)),
    StableHlo.binary main_v3 main_v9 main_v10 (subf : (⟨S4x50000x256, .f32⟩ : BufTy).Contents (Elt F) → (⟨S4x50000x256, .f32⟩ : BufTy).Contents (Elt F) → (⟨S4x50000x256, .f32⟩ : BufTy).Contents (Elt F)),
    StableHlo.nullary main_cst_1 (constant S_ .f32 0x3727C5AC#32),
    StableHlo.unary main_cst_1 main_v11 (broadcastInDim S4x50000x1 ![] bcast_S_S4x50000x1 : (⟨S_, .f32⟩ : BufTy).Contents (Elt F) → (⟨S4x50000x1, .f32⟩ : BufTy).Contents (Elt F)),
    StableHlo.binary main_v8 main_v11 main_v12 (addf : (⟨S4x50000x1, .f32⟩ : BufTy).Contents (Elt F) → (⟨S4x50000x1, .f32⟩ : BufTy).Contents (Elt F) → (⟨S4x50000x1, .f32⟩ : BufTy).Contents (Elt F)),
    StableHlo.unary main_v12 main_v13 (Host.sqrt : (⟨S4x50000x1, .f32⟩ : BufTy).Contents (Elt F) → (⟨S4x50000x1, .f32⟩ : BufTy).Contents (Elt F)),
    StableHlo.unary main_v13 main_v14 (broadcastInDim S4x50000x256 ![0, 1, 2] bcast_S4x50000x1_S4x50000x256_0_1_2 : (⟨S4x50000x1, .f32⟩ : BufTy).Contents (Elt F) → (⟨S4x50000x256, .f32⟩ : BufTy).Contents (Elt F)),
    StableHlo.binary main_v10 main_v14 main_v15 (Host.divf : (⟨S4x50000x256, .f32⟩ : BufTy).Contents (Elt F) → (⟨S4x50000x256, .f32⟩ : BufTy).Contents (Elt F) → (⟨S4x50000x256, .f32⟩ : BufTy).Contents (Elt F)),
    StableHlo.unary main_arg3 main_v16 (broadcastInDim S1x1x256 ![2] bcast_S256_S1x1x256_2 : (⟨S256, .f32⟩ : BufTy).Contents (Elt F) → (⟨S1x1x256, .f32⟩ : BufTy).Contents (Elt F)),
    StableHlo.unary main_v16 main_v17 (broadcastInDim S4x50000x256 ![0, 1, 2] bcast_S1x1x256_S4x50000x256_0_1_2 : (⟨S1x1x256, .f32⟩ : BufTy).Contents (Elt F) → (⟨S4x50000x256, .f32⟩ : BufTy).Contents (Elt F)),
    StableHlo.binary main_v15 main_v17 main_v18 (mulf : (⟨S4x50000x256, .f32⟩ : BufTy).Contents (Elt F) → (⟨S4x50000x256, .f32⟩ : BufTy).Contents (Elt F) → (⟨S4x50000x256, .f32⟩ : BufTy).Contents (Elt F)),
    StableHlo.unary main_arg4 main_v19 (broadcastInDim S1x1x256 ![2] bcast_S256_S1x1x256_2 : (⟨S256, .f32⟩ : BufTy).Contents (Elt F) → (⟨S1x1x256, .f32⟩ : BufTy).Contents (Elt F)),
    StableHlo.unary main_v19 main_v20 (broadcastInDim S4x50000x256 ![0, 1, 2] bcast_S1x1x256_S4x50000x256_0_1_2 : (⟨S1x1x256, .f32⟩ : BufTy).Contents (Elt F) → (⟨S4x50000x256, .f32⟩ : BufTy).Contents (Elt F)),
    StableHlo.binary main_v18 main_v20 main_v21 (addf : (⟨S4x50000x256, .f32⟩ : BufTy).Contents (Elt F) → (⟨S4x50000x256, .f32⟩ : BufTy).Contents (Elt F) → (⟨S4x50000x256, .f32⟩ : BufTy).Contents (Elt F)),
    StableHlo.TRef.nullary main_call1.cst (constant S_ .f32 0x00000000#32),
    StableHlo.TRef.unary main_call1.cst main_call1.v0 (broadcastInDim S4x50000x256 ![] bcast_S_S4x50000x256),
    StableHlo.TRef.binary (.of main_v21 : StableHlo.TRef sig ⟨S4x50000x256, .f32⟩) main_call1.v0 main_call1.v1 maximumf,
    StableHlo.binary main_v22 main_arg5 main_v23 ((fun l r => Host.dotGeneral dot_S4x50000x256_S256x1_S4x50000x1_2_0_01_1_n_n none l r) : (⟨S4x50000x256, .f32⟩ : BufTy).Contents (Elt F) → (⟨S256x1, .f32⟩ : BufTy).Contents (Elt F) → (⟨S4x50000x1, .f32⟩ : BufTy).Contents (Elt F)),
    StableHlo.unary main_arg6 main_v24 (broadcastInDim S1x1x1 ![2] bcast_S1_S1x1x1_2 : (⟨S1, .f32⟩ : BufTy).Contents (Elt F) → (⟨S1x1x1, .f32⟩ : BufTy).Contents (Elt F)),
    StableHlo.unary main_v24 main_v25 (broadcastInDim S4x50000x1 ![0, 1, 2] bcast_S1x1x1_S4x50000x1_0_1_2 : (⟨S1x1x1, .f32⟩ : BufTy).Contents (Elt F) → (⟨S4x50000x1, .f32⟩ : BufTy).Contents (Elt F)),
    StableHlo.binary main_v23 main_v25 main_v26 (addf : (⟨S4x50000x1, .f32⟩ : BufTy).Contents (Elt F) → (⟨S4x50000x1, .f32⟩ : BufTy).Contents (Elt F) → (⟨S4x50000x1, .f32⟩ : BufTy).Contents (Elt F)),
    StableHlo.reshape main_v26 main_v27 rfl shapeCasts_S4x50000x1_S4x50000 ]

set_option maxRecDepth 4096 in
/-- @main is that straight line: the functions' definitions unfolded at their calls, sequencing reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- From any memory with zero counters every weakly fair execution of @main terminates, and every buffer ends at
    the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefIndex.lean ====
/-
  The reference's layout operations, row sums and matrix products read at an index built from coordinates:
  each broadcast reads one entry of its operand, a sum over the last axis is the sum over that coordinate,
  and each product with one contracted axis is the sum over that coordinate of the entries' products.
-/
import proofs.«173590_g60120952209874_cont_9to1c4b_465_2_alg».proof.ReferenceIdeal
import proofs.«173590_g60120952209874_cont_9to1c4b_465_2_alg».proof.Proof.Gen.ReferenceIdeal
import proofs.«173590_g60120952209874_cont_9to1c4b_465_2_alg».proof.Proof.Spec

import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Broadcasts -/

/-- A vector of 256 entries copied along the two leading axes reads its entry at the last coordinate. -/
theorem bcastVec_apply (a : FVec Ideal S256 .f32) (b : Fin 4) (n : Fin 50000) (e : Fin 256) :
    broadcastInDim S4x50000x256 ![0, 1, 2] bcast_S1x1x256_S4x50000x256_0_1_2
      (broadcastInDim S1x1x256 ![2] bcast_S256_S1x1x256_2 a) (ix3 b n e) = a (ix1 e) := by
  refine (broadcastInDim_apply _ _ _ (ix3 b n e) (ix3 (0 : Fin 1) (0 : Fin 1) e)
    (fun a => match a with | ⟨0, _⟩ => rfl | ⟨1, _⟩ => rfl | ⟨2, _⟩ => rfl)).trans ?_
  exact broadcastInDim_apply _ _ _ (ix3 (0 : Fin 1) (0 : Fin 1) e) (ix1 e) (fun a => match a with | ⟨0, _⟩ => rfl)

/-- A one-entry vector copied to every row reads its one entry. -/
theorem bcastOne_apply (a : FVec Ideal S1 .f32) (b : Fin 4) (n : Fin 50000) (z : Fin 1) :
    broadcastInDim S4x50000x1 ![0, 1, 2] bcast_S1x1x1_S4x50000x1_0_1_2
      (broadcastInDim S1x1x1 ![2] bcast_S1_S1x1x1_2 a) (ix3 b n z) = a (ix1 (0 : Fin 1)) := by
  refine (broadcastInDim_apply _ _ _ (ix3 b n z) (ix3 (0 : Fin 1) (0 : Fin 1) (0 : Fin 1))
    (fun a => match a with | ⟨0, _⟩ => rfl | ⟨1, _⟩ => rfl | ⟨2, _⟩ => rfl)).trans ?_
  exact broadcastInDim_apply _ _ _ (ix3 (0 : Fin 1) (0 : Fin 1) (0 : Fin 1)) (ix1 (0 : Fin 1)) (fun a => match a with | ⟨0, _⟩ => rfl)

/-- A per-row value given a trailing unit axis reads the row's value. -/
theorem bcastUnit_apply (x : FVec Ideal S4x50000 .f32) (b : Fin 4) (n : Fin 50000) (z : Fin 1) :
    broadcastInDim S4x50000x1 ![0, 1] bcast_S4x50000_S4x50000x1_0_1 x (ix3 b n z) = x (ix2 b n) :=
  broadcastInDim_apply _ _ _ (ix3 b n z) (ix2 b n) (fun a => match a with | ⟨0, _⟩ => rfl | ⟨1, _⟩ => rfl)

/-- A per-row value copied along the row reads the row's value. -/
theorem bcastAlong_apply (x : FVec Ideal S4x50000x1 .f32) (b : Fin 4) (n : Fin 50000) (e : Fin 256) :
    broadcastInDim S4x50000x256 ![0, 1, 2] bcast_S4x50000x1_S4x50000x256_0_1_2 x (ix3 b n e) = x (ix3 b n (0 : Fin 1)) :=
  broadcastInDim_apply _ _ _ (ix3 b n e) (ix3 b n (0 : Fin 1)) (fun a => match a with | ⟨0, _⟩ => rfl | ⟨1, _⟩ => rfl | ⟨2, _⟩ => rfl)

/-! ## The sum over a row -/

/-- The sum over the last axis from the zero initial value, read at a row, is the sum of the row's 256 entries. -/
theorem rowSum_apply (h : FVec Ideal S4x50000x256 .f32) (b : Fin 4) (n : Fin 50000) :
    Host.reduceAdd (F := Ideal) h (constant (F := Ideal) S_ .f32 0x00000000#32) reducesTo_S4x50000x256_S4x50000_d2 h_S_ (ix2 b n)
      = ∑ e : Fin 256, h (ix3 b n e) := by
  have hR : S4x50000x256.Reduces [2] S4x50000 := by decide
  have h1 := Ideal.hostReduceAdd_single reducesTo_S4x50000x256_S4x50000_d2 hR h (Ideal.ofBits .f32 0x00000000#32) (ix2 b n)
  refine h1.trans ?_
  rw [Ideal.ofBits_zero_f32, zero_add]
  refine Finset.sum_congr rfl fun k _ => ?_
  exact congrArg h (funext fun a => Fin.ext (by match a with | ⟨0, _⟩ => rfl | ⟨1, _⟩ => rfl | ⟨2, _⟩ => rfl))

/-! ## The two matrix products -/

/-- The hidden layer's product: rows of the embedding against the 256 × 256 weights. -/
abbrev D1 : DotDims S4x50000x256 S256x256 S4x50000x256 := dot_S4x50000x256_S256x256_S4x50000x256_2_0_01_1_n_n
/-- The read-out's product: rows against the 256 × 1 weights. -/
abbrev D2 : DotDims S4x50000x256 S256x1 S4x50000x1 := dot_S4x50000x256_S256x1_S4x50000x1_2_0_01_1_n_n

theorem lhs1_0 (i : S4x50000x256.Idx) (q : D1.contr.Idx) : (D1.lhsIdx i q 0).val = (i 0).val := by
  unfold DotDims.lhsIdx
  rw [dif_neg (show ¬(0 : Fin S4x50000x256.rank) ∈ D1.lhsBatch by decide), dif_pos (show (0 : Fin S4x50000x256.rank) ∈ D1.lhsNonContracting by decide)]
  rfl
theorem lhs1_1 (i : S4x50000x256.Idx) (q : D1.contr.Idx) : (D1.lhsIdx i q 1).val = (i 1).val := by
  unfold DotDims.lhsIdx
  rw [dif_neg (show ¬(1 : Fin S4x50000x256.rank) ∈ D1.lhsBatch by decide), dif_pos (show (1 : Fin S4x50000x256.rank) ∈ D1.lhsNonContracting by decide)]
  rfl
theorem lhs1_2 (i : S4x50000x256.Idx) (q : D1.contr.Idx) : (D1.lhsIdx i q 2).val = (q ⟨0, by decide⟩).val :=
  D1.lhsIdx_val_of_single rfl i q
theorem rhs1_0 (i : S4x50000x256.Idx) (q : D1.contr.Idx) : (D1.rhsIdx i q 0).val = (q ⟨0, by decide⟩).val :=
  D1.rhsIdx_val_of_single rfl i q
theorem rhs1_1 (i : S4x50000x256.Idx) (q : D1.contr.Idx) : (D1.rhsIdx i q 1).val = (i 2).val := by
  unfold DotDims.rhsIdx
  rw [dif_neg (show ¬(1 : Fin S256x256.rank) ∈ D1.rhsBatch by decide), dif_pos (show (1 : Fin S256x256.rank) ∈ D1.rhsNonContracting by decide)]
  rfl

/-- The hidden layer's product read at (b, n, e): the sum over k of embedding (b, n, k) times weight (k, e). -/
theorem dot1_apply (a0 : FVec Ideal S4x50000x256 .f32) (a1 : FVec Ideal S256x256 .f32) (b : Fin 4) (n : Fin 50000) (e : Fin 256) :
    Host.dotGeneral (F := Ideal) D1 none a0 a1 (ix3 b n e) = ∑ k : Fin 256, a0 (ix3 b n k) * a1 (ix2 k e) := by
  simp only [Host.dotGeneral]
  rw [Ideal.dotGeneral_apply, ← Equiv.sum_comp (ValueIdx.contrEquiv1 D1 256 rfl rfl).symm]
  refine Finset.sum_congr rfl fun k _ => ?_
  have hk := ValueIdx.contrEquiv1_symm_val D1 256 rfl rfl k
  have el : D1.lhsIdx (ix3 b n e) ((ValueIdx.contrEquiv1 D1 256 rfl rfl).symm k) = ix3 b n k := funext fun a => Fin.ext (by
    match a with
    | ⟨0, _⟩ => exact lhs1_0 _ _
    | ⟨1, _⟩ => exact lhs1_1 _ _
    | ⟨2, _⟩ => exact (lhs1_2 _ _).trans hk)
  have er : D1.rhsIdx (ix3 b n e) ((ValueIdx.contrEquiv1 D1 256 rfl rfl).symm k) = ix2 k e := funext fun a => Fin.ext (by
    match a with
    | ⟨0, _⟩ => exact (rhs1_0 _ _).trans hk
    | ⟨1, _⟩ => exact rhs1_1 _ _)
  rw [el, er]

theorem lhs2_0 (i : S4x50000x1.Idx) (q : D2.contr.Idx) : (D2.lhsIdx i q 0).val = (i 0).val := by
  unfold DotDims.lhsIdx
  rw [dif_neg (show ¬(0 : Fin S4x50000x256.rank) ∈ D2.lhsBatch by decide), dif_pos (show (0 : Fin S4x50000x256.rank) ∈ D2.lhsNonContracting by decide)]
  rfl
theorem lhs2_1 (i : S4x50000x1.Idx) (q : D2.contr.Idx) : (D2.lhsIdx i q 1).val = (i 1).val := by
  unfold DotDims.lhsIdx
  rw [dif_neg (show ¬(1 : Fin S4x50000x256.rank) ∈ D2.lhsBatch by decide), dif_pos (show (1 : Fin S4x50000x256.rank) ∈ D2.lhsNonContracting by decide)]
  rfl
theorem lhs2_2 (i : S4x50000x1.Idx) (q : D2.contr.Idx) : (D2.lhsIdx i q 2).val = (q ⟨0, by decide⟩).val :=
  D2.lhsIdx_val_of_single rfl i q
theorem rhs2_0 (i : S4x50000x1.Idx) (q : D2.contr.Idx) : (D2.rhsIdx i q 0).val = (q ⟨0, by decide⟩).val :=
  D2.rhsIdx_val_of_single rfl i q
theorem rhs2_1 (i : S4x50000x1.Idx) (q : D2.contr.Idx) : (D2.rhsIdx i q 1).val = (i 2).val := by
  unfold DotDims.rhsIdx
  rw [dif_neg (show ¬(1 : Fin S256x1.rank) ∈ D2.rhsBatch by decide), dif_pos (show (1 : Fin S256x1.rank) ∈ D2.rhsNonContracting by decide)]
  rfl

/-- The read-out's product read at (b, n, 0): the sum over e of the row's entry e times weight (e, 0). -/
theorem dot2_apply (x : FVec Ideal S4x50000x256 .f32) (a5 : FVec Ideal S256x1 .f32) (b : Fin 4) (n : Fin 50000) (z : Fin 1) :
    Host.dotGeneral (F := Ideal) D2 none x a5 (ix3 b n z) = ∑ e : Fin 256, x (ix3 b n e) * a5 (ix2 e z) := by
  simp only [Host.dotGeneral]
  rw [Ideal.dotGeneral_apply, ← Equiv.sum_comp (ValueIdx.contrEquiv1 D2 256 rfl rfl).symm]
  refine Finset.sum_congr rfl fun k _ => ?_
  have hk := ValueIdx.contrEquiv1_symm_val D2 256 rfl rfl k
  have el : D2.lhsIdx (ix3 b n z) ((ValueIdx.contrEquiv1 D2 256 rfl rfl).symm k) = ix3 b n k := funext fun a => Fin.ext (by
    match a with
    | ⟨0, _⟩ => exact lhs2_0 _ _
    | ⟨1, _⟩ => exact lhs2_1 _ _
    | ⟨2, _⟩ => exact (lhs2_2 _ _).trans hk)
  have er : D2.rhsIdx (ix3 b n z) ((ValueIdx.contrEquiv1 D2 256 rfl rfl).symm k) = ix2 k z := funext fun a => Fin.ext (by
    match a with
    | ⟨0, _⟩ => exact (rhs2_0 _ _).trans hk
    | ⟨1, _⟩ => exact rhs2_1 _ _)
  rw [el, er]

/-! ## The reshape that drops the trailing unit axis -/

/-- The result's reshape read at (b, n) is its operand at (b, n, 0). -/
theorem dropUnit_apply (x : FVec Ideal S4x50000x1 .f32) (b : Fin 4) (n : Fin 50000) :
    shapeCast S4x50000 x shapeCasts_S4x50000x1_S4x50000 (ix2 b n) = x (ix3 b n (0 : Fin 1)) := by
  refine shapeCast_apply x _ (ix2 b n) (ix3 b n (0 : Fin 1)) ?_
  rw [Shape.rowMajor_val_two, Shape.rowMajor_val_three]
  show (b.val * 50000 + n.val) * 1 + 0 = b.val * 50000 + n.val
  omega

end Cert.ReferenceIdeal.RefValue

end
-- ==== Proof.RefStages.lean ====
/-
  The reference's computation cut into stages, each a function of whole arrays built from the program's own
  operations, and each read at an index as the corresponding function of one row: the hidden row, its mean,
  its variance (whose guard on the divisor is always taken), the normalised and affinely mapped row, and the
  positive part's read-out.
-/
import proofs.«173590_g60120952209874_cont_9to1c4b_465_2_alg».proof.ReferenceIdeal
import proofs.«173590_g60120952209874_cont_9to1c4b_465_2_alg».proof.Proof.Gen.ReferenceIdeal
import proofs.«173590_g60120952209874_cont_9to1c4b_465_2_alg».proof.Proof.Spec
import proofs.«173590_g60120952209874_cont_9to1c4b_465_2_alg».proof.Proof.RefIndex
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The hidden array -/

/-- The hidden array: the embedding times the first weights, plus the first bias along the last axis. -/
def Hd (a0 : FVec Ideal S4x50000x256 .f32) (a1 : FVec Ideal S256x256 .f32) (a2 : FVec Ideal S256 .f32) :
    FVec Ideal S4x50000x256 .f32 :=
  addf (Host.dotGeneral (F := Ideal) D1 none a0 a1)
    (broadcastInDim S4x50000x256 ![0, 1, 2] bcast_S1x1x256_S4x50000x256_0_1_2
      (broadcastInDim S1x1x256 ![2] bcast_S256_S1x1x256_2 a2))

/-- At (b, n, e) it is entry e of the hidden row of the embedding's row (b, n). -/
theorem Hd_apply (a0 : FVec Ideal S4x50000x256 .f32) (a1 : FVec Ideal S256x256 .f32) (a2 : FVec Ideal S256 .f32)
    (b : Fin 4) (n : Fin 50000) (e : Fin 256) :
    Hd a0 a1 a2 (ix3 b n e) = Mlp.hid a1 a2 (fun k => a0 (ix3 b n k)) e := by
  unfold Hd Mlp.hid
  rw [addf_apply, dot1_apply, bcastVec_apply]

/-! ## The mean of each row -/

/-- The row means, with a trailing unit axis: the row sums over the broadcast 256. -/
def Mn (h : FVec Ideal S4x50000x256 .f32) : FVec Ideal S4x50000x1 .f32 :=
  Host.divf (F := Ideal)
    (broadcastInDim S4x50000x1 ![0, 1] bcast_S4x50000_S4x50000x1_0_1
      (Host.reduceAdd (F := Ideal) h (constant (F := Ideal) S_ .f32 0x00000000#32) reducesTo_S4x50000x256_S4x50000_d2 h_S_))
    (broadcastInDim S4x50000x1 ![] bcast_S_S4x50000x1 (constant (F := Ideal) S_ .f32 0x43800000#32))

/-- At (b, n, 0) it is the mean of row (b, n). -/
theorem Mn_apply (h : FVec Ideal S4x50000x256 .f32) (b : Fin 4) (n : Fin 50000) (z : Fin 1) :
    Mn h (ix3 b n z) = Mlp.mean (fun e => h (ix3 b n e)) := by
  unfold Mn Mlp.mean Mlp.c256
  rw [hostDivf_apply, bcastUnit_apply, rowSum_apply, broadcastInDim_scalar_apply, constant_apply]

/-! ## The variance of each row -/

/-- The variance's divisor: 256 minus the integer 0 converted. -/
def den : FVec Ideal S_ .f32 :=
  subf (constant (F := Ideal) S_ .f32 0x43800000#32) (sitofp (F := Ideal) .f32 (constantI S_ 32 0#32))

/-- It is 256. -/
theorem den_apply (j : S_.Idx) : den j = Mlp.c256 := by
  unfold den Mlp.c256
  show Ideal.ofBits .f32 0x43800000#32 - (((0#32 : BitVec 32).toInt : ℝ) : EReal) = _
  simp

/-- The row variances, with a trailing unit axis, as the variance function spells them: the centred squares'
    row sums over the divisor, selected where the divisor is positive, the not-a-number constant elsewhere. -/
def Vr (h : FVec Ideal S4x50000x256 .f32) : FVec Ideal S4x50000x1 .f32 :=
  select
    (broadcastInDim S4x50000x1 ![] bcast_S_S4x50000x1 (cmpf .ogt den (constant (F := Ideal) S_ .f32 0x00000000#32)))
    (Host.divf (F := Ideal)
      (broadcastInDim S4x50000x1 ![0, 1] bcast_S4x50000_S4x50000x1_0_1
        (Host.reduceAdd (F := Ideal)
          (mulf (subf h (broadcastInDim S4x50000x256 ![0, 1, 2] bcast_S4x50000x1_S4x50000x256_0_1_2 (Mn h)))
            (subf h (broadcastInDim S4x50000x256 ![0, 1, 2] bcast_S4x50000x1_S4x50000x256_0_1_2 (Mn h))))
          (constant (F := Ideal) S_ .f32 0x00000000#32) reducesTo_S4x50000x256_S4x50000_d2 h_S_))
      (broadcastInDim S4x50000x1 ![] bcast_S_S4x50000x1 den))
    (broadcastInDim S4x50000x1 ![] bcast_S_S4x50000x1 (id (constant (F := Ideal) S_ .f32 0x7FC00000#32)))

/-- The guard holds: 256 is above 0. -/
theorem guard_eq (j : S_.Idx) : cmpf .ogt den (constant (F := Ideal) S_ .f32 0x00000000#32) j = 1#1 := by
  rw [cmpf_apply, den_apply, constant_apply, Ideal.ofBits_zero_f32, Ideal.cmpf_def, Mlp.c256_eq]
  unfold Ideal.cmp
  have h : (0 : EReal) < ((256 : ℝ) : EReal) := by exact_mod_cast (by norm_num : (0 : ℝ) < 256)
  simp [h]

/-- At (b, n, 0) it is the variance of row (b, n). -/
theorem Vr_apply (h : FVec Ideal S4x50000x256 .f32) (b : Fin 4) (n : Fin 50000) (z : Fin 1) :
    Vr h (ix3 b n z) = Mlp.var (fun e => h (ix3 b n e)) := by
  unfold Vr
  rw [select_apply, broadcastInDim_scalar_apply, guard_eq, select_one, hostDivf_apply, bcastUnit_apply, rowSum_apply,
    broadcastInDim_scalar_apply, den_apply]
  unfold Mlp.var Mlp.cen
  refine congrArg (fun s => Ideal.div s Mlp.c256) (Finset.sum_congr rfl fun e _ => ?_)
  rw [mulf_apply, subf_apply, bcastAlong_apply, Mn_apply]

/-! ## The normalised row, mapped affinely -/

/-- The normalised array times the scale plus the shift. -/
def Nrm (h : FVec Ideal S4x50000x256 .f32) (a3 a4 : FVec Ideal S256 .f32) : FVec Ideal S4x50000x256 .f32 :=
  addf
    (mulf
      (Host.divf (F := Ideal)
        (subf h (broadcastInDim S4x50000x256 ![0, 1, 2] bcast_S4x50000x1_S4x50000x256_0_1_2 (Mn h)))
        (broadcastInDim S4x50000x256 ![0, 1, 2] bcast_S4x50000x1_S4x50000x256_0_1_2
          (Host.sqrt (F := Ideal)
            (addf (Vr h) (broadcastInDim S4x50000x1 ![] bcast_S_S4x50000x1 (constant (F := Ideal) S_ .f32 0x3727C5AC#32))))))
      (broadcastInDim S4x50000x256 ![0, 1, 2] bcast_S1x1x256_S4x50000x256_0_1_2
        (broadcastInDim S1x1x256 ![2] bcast_S256_S1x1x256_2 a3)))
    (broadcastInDim S4x50000x256 ![0, 1, 2] bcast_S1x1x256_S4x50000x256_0_1_2
      (broadcastInDim S1x1x256 ![2] bcast_S256_S1x1x256_2 a4))

/-- At (b, n, e): the row's normalised entry e times scale e plus shift e. -/
theorem Nrm_apply (h : FVec Ideal S4x50000x256 .f32) (a3 a4 : FVec Ideal S256 .f32) (b : Fin 4) (n : Fin 50000) (e : Fin 256) :
    Nrm h a3 a4 (ix3 b n e) = Mlp.normDiv (fun e => h (ix3 b n e)) e * a3 (ix1 e) + a4 (ix1 e) := by
  unfold Nrm Mlp.normDiv Mlp.cen Mlp.eps
  rw [addf_apply, mulf_apply, hostDivf_apply, subf_apply, bcastAlong_apply, Mn_apply, bcastAlong_apply, bcastVec_apply, bcastVec_apply]
  show Ideal.div _ (Ideal.sqrt (addf (Vr h) _ (ix3 b n (0 : Fin 1)))) * _ + _ = _
  rw [addf_apply, Vr_apply, broadcastInDim_scalar_apply, constant_apply]

/-! ## The positive part and the read-out -/

/-- The result array: the positive part times the second weights, plus the second bias, the unit axis dropped. -/
def Out (x : FVec Ideal S4x50000x256 .f32) (a5 : FVec Ideal S256x1 .f32) (a6 : FVec Ideal S1 .f32) : FVec Ideal S4x50000 .f32 :=
  shapeCast S4x50000
    (addf
      (Host.dotGeneral (F := Ideal) D2 none
        (maximumf x (broadcastInDim S4x50000x256 ![] bcast_S_S4x50000x256 (constant (F := Ideal) S_ .f32 0x00000000#32))) a5)
      (broadcastInDim S4x50000x1 ![0, 1, 2] bcast_S1x1x1_S4x50000x1_0_1_2 (broadcastInDim S1x1x1 ![2] bcast_S1_S1x1x1_2 a6)))
    shapeCasts_S4x50000x1_S4x50000

/-- At (b, n): the sum over e of the positive part of the row's entry e times weight (e, 0), plus the bias. -/
theorem Out_apply (x : FVec Ideal S4x50000x256 .f32) (a5 : FVec Ideal S256x1 .f32) (a6 : FVec Ideal S1 .f32) (b : Fin 4) (n : Fin 50000) :
    Out x a5 a6 (ix2 b n) = (∑ e : Fin 256, max (x (ix3 b n e)) 0 * a5 (ix2 e (0 : Fin 1))) + a6 (ix1 (0 : Fin 1)) := by
  unfold Out
  rw [dropUnit_apply, addf_apply, dot2_apply, bcastOne_apply]
  refine congrArg (· + _) (Finset.sum_congr rfl fun e _ => ?_)
  rw [maximumf_apply, broadcastInDim_scalar_apply, constant_apply, Ideal.ofBits_zero_f32]

end Cert.ReferenceIdeal.RefValue

end
-- ==== Proof.RefValue.lean ====
/-
  The reference's result array as one function G of the seven argument arrays, its value at (b, n) as the
  row function of the specification, and the run: every weakly fair execution of the reference terminates
  with the result buffer at G of the arguments' launch contents and the arguments unchanged.
-/
import proofs.«173590_g60120952209874_cont_9to1c4b_465_2_alg».proof.Proof.RefRun
import proofs.«173590_g60120952209874_cont_9to1c4b_465_2_alg».proof.Proof.RefStages

noncomputable section

open scoped BigOperators

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-- The reference's result array as one function of the argument arrays. -/
def G (a0 : FVec Ideal S4x50000x256 .f32) (a1 : FVec Ideal S256x256 .f32) (a2 a3 a4 : FVec Ideal S256 .f32)
    (a5 : FVec Ideal S256x1 .f32) (a6 : FVec Ideal S1 .f32) : FVec Ideal S4x50000 .f32 :=
  Out (Nrm (Hd a0 a1 a2) a3 a4) a5 a6

/-- At (b, n) it is the specification's row function of the embedding's row (b, n). -/
theorem G_apply (a0 : FVec Ideal S4x50000x256 .f32) (a1 : FVec Ideal S256x256 .f32) (a2 a3 a4 : FVec Ideal S256 .f32)
    (a5 : FVec Ideal S256x1 .f32) (a6 : FVec Ideal S1 .f32) (b : Fin 4) (n : Fin 50000) :
    G a0 a1 a2 a3 a4 a5 a6 (ValueIdx.ix2 b n) = Cert.Mlp.outDiv a1 a2 a3 a4 a5 a6 (fun k => a0 (ValueIdx.ix3 b n k)) := by
  unfold G Mlp.outDiv Mlp.head
  rw [Out_apply]
  have hrow : (fun e => Hd a0 a1 a2 (ix3 b n e)) = Mlp.hid a1 a2 (fun k => a0 (ix3 b n k)) :=
    funext fun e => Hd_apply a0 a1 a2 b n e
  refine congrArg (· + _) (Finset.sum_congr rfl fun e _ => ?_)
  rw [Nrm_apply, hrow]

set_option maxRecDepth 8192 in
set_option maxHeartbeats 1600000 in
/-- The operations' fold at the result buffer is G of the arguments' contents. -/
theorem out_eq (V : Valuation τ sig (Elt Ideal)) :
    after (ops (F := Ideal)) V (main_v27 : DevRef τ sig)
      = G (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

set_option maxRecDepth 8192 in
theorem arg0_eq (V : Valuation τ sig (Elt Ideal)) :
    after (ops (F := Ideal)) V (main_arg0 : DevRef τ sig) = V (main_arg0 : DevRef τ sig) := by
  after_results_simp

set_option maxRecDepth 8192 in
theorem arg1_eq (V : Valuation τ sig (Elt Ideal)) :
    after (ops (F := Ideal)) V (main_arg1 : DevRef τ sig) = V (main_arg1 : DevRef τ sig) := by
  after_results_simp

set_option maxRecDepth 8192 in
theorem arg2_eq (V : Valuation τ sig (Elt Ideal)) :
    after (ops (F := Ideal)) V (main_arg2 : DevRef τ sig) = V (main_arg2 : DevRef τ sig) := by
  after_results_simp

set_option maxRecDepth 8192 in
theorem arg3_eq (V : Valuation τ sig (Elt Ideal)) :
    after (ops (F := Ideal)) V (main_arg3 : DevRef τ sig) = V (main_arg3 : DevRef τ sig) := by
  after_results_simp

set_option maxRecDepth 8192 in
theorem arg4_eq (V : Valuation τ sig (Elt Ideal)) :
    after (ops (F := Ideal)) V (main_arg4 : DevRef τ sig) = V (main_arg4 : DevRef τ sig) := by
  after_results_simp

set_option maxRecDepth 8192 in
theorem arg5_eq (V : Valuation τ sig (Elt Ideal)) :
    after (ops (F := Ideal)) V (main_arg5 : DevRef τ sig) = V (main_arg5 : DevRef τ sig) := by
  after_results_simp

set_option maxRecDepth 8192 in
theorem arg6_eq (V : Valuation τ sig (Elt Ideal)) :
    after (ops (F := Ideal)) V (main_arg6 : DevRef τ sig) = V (main_arg6 : DevRef τ sig) := by
  after_results_simp

/-- From any memory with zero counters every weakly fair execution of the reference terminates with the result
    buffer at G of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
          = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v27).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_after m ρ)

end Cert.ReferenceIdeal.RefValue

end
-- ==== Proof.lean ====
/-
  A fused per-row network — a linear layer to 256 hidden units, layer normalisation, an affine map, the positive
  part, and a linear read-out to one number per row — computed by one tiled kernel over 200000 rows, against the same
  network written with whole-array operations.

  Over the extended reals both programs compute, at row (b, n) of the embedding, one row function of that row and of
  the parameter arrays.  The two differ in one spelling only: the kernel multiplies the centred hidden entries by the
  reciprocal square root of the offset variance, the reference divides them by its square root.  A variance is a sum
  of squares divided by 256, never negative, so the offset variance is strictly positive, and for a strictly positive
  extended real (finite or +infinity) the two spellings agree; no finiteness of the inputs is used.  The order and tiling
  of the sums (a matrix product tiled over row blocks, lane sums, the read-out as a product with a parameter row summed
  along the row) do not matter over the extended reals.  The frames of the two kernel programs are the generated ones;
  the reference's frame is its run with the result forgotten; nothing was rewritten between the kernel and its
  idealisation, so that conjunct is trivial.
-/
import proofs.«173590_g60120952209874_cont_9to1c4b_465_2_alg».proof.Defs
import proofs.«173590_g60120952209874_cont_9to1c4b_465_2_alg».proof.Proof.Gen.Kernel
import proofs.«173590_g60120952209874_cont_9to1c4b_465_2_alg».proof.Proof.Gen.Kernel.Frame
import proofs.«173590_g60120952209874_cont_9to1c4b_465_2_alg».proof.Proof.Gen.KernelIdeal
import proofs.«173590_g60120952209874_cont_9to1c4b_465_2_alg».proof.Proof.Gen.KernelIdeal.Frame
import proofs.«173590_g60120952209874_cont_9to1c4b_465_2_alg».proof.Proof.Gen.ReferenceIdeal
import proofs.«173590_g60120952209874_cont_9to1c4b_465_2_alg».proof.Proof.Gen.Pre_finite_inputs
import proofs.«173590_g60120952209874_cont_9to1c4b_465_2_alg».proof.Proof.KernelValue
import proofs.«173590_g60120952209874_cont_9to1c4b_465_2_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The two programs' result arrays are one function of the argument arrays: at (b, n) the product spelling and the
    quotient spelling of the row function of row (b, n). -/
theorem results_agree (a0 : FVec Ideal Cert.KernelIdeal.S4x50000x256 .f32) (a1 : FVec Ideal Cert.KernelIdeal.S256x256 .f32)
    (a2 a3 a4 : FVec Ideal Cert.KernelIdeal.S256 .f32) (a5 : FVec Ideal Cert.KernelIdeal.S256x1 .f32)
    (a6 : FVec Ideal Cert.KernelIdeal.S1 .f32) :
    Cert.ReferenceIdeal.RefValue.G a0 a1 a2 a3 a4 a5 a6 = Cert.KernelIdeal.Val.G a0 a1 a2 a3 a4 a5 a6 := by
  funext j
  obtain ⟨b, n, rfl⟩ : ∃ (b : Fin 4) (n : Fin 50000), j = ix2 b n := ⟨j 0, j 1, eq_ix2 j⟩
  rw [Cert.ReferenceIdeal.RefValue.G_apply, Cert.KernelIdeal.Val.G_apply, Cert.Mlp.outMul_eq_outDiv]

theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6⟩ := hagree c
  rw [e0, e1, e2, e3, e4, e5, e6]
  exact results_agree _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
